-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x8x16 : Shape := ⟨4, ![2048, 8, 8, 16]⟩
abbrev S2048x16x8 : Shape := ⟨3, ![2048, 16, 8]⟩
abbrev S2048x8x128 : Shape := ⟨3, ![2048, 8, 128]⟩
abbrev S48x512 : Shape := ⟨2, ![48, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S_ : Shape := ⟨0, ![]⟩

class Facts : Prop where
  bcast_S_S2048x8x8x16 : S_.BroadcastsInDim S2048x8x8x16 (![] : Fin 0 → Fin S2048x8x8x16.rank)
  reducesTo_S2048x8x8x16_S_d0_1_2_3 : S2048x8x8x16.ReducesTo [0, 1, 2, 3] S_
  h_S_ : 0 < S_.numel
  bcast_S_S2048x16x8 : S_.BroadcastsInDim S2048x16x8 (![] : Fin 0 → Fin S2048x16x8.rank)
  reducesTo_S2048x16x8_S_d0_1_2 : S2048x16x8.ReducesTo [0, 1, 2] S_
  bcast_S_S2048x8x128 : S_.BroadcastsInDim S2048x8x128 (![] : Fin 0 → Fin S2048x8x128.rank)
  reducesTo_S2048x8x128_S_d0_1_2 : S2048x8x128.ReducesTo [0, 1, 2] S_
  bcast_S_S48x512 : S_.BroadcastsInDim S48x512 (![] : Fin 0 → Fin S48x512.rank)
  reducesTo_S48x512_S_d0_1 : S48x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S512x16 .f32) (main_arg8 : FVec F S16 .f32) (main_v33 : IVec S_ 1) : IVec S_ 1 :=
  let main_v34 : FVec F S512x16 .f32 := Host.absf main_arg7
  let main_cst_12 : FVec F S_ .f32 := constant S_ .f32 0x7F800000#32
  let main_v35 : FVec F S512x16 .f32 := broadcastInDim S512x16 ![] bcast_S_S512x16 main_cst_12
  let main_v36 : IVec S512x16 1 := cmpf .olt main_v34 main_v35
  let main_c_13 : IVec S_ 1 := constantI S_ 1 1#1
  let main_v37 : IVec S_ 1 := (fun x v => Host.reduce IntOp.andi x v reducesTo_S512x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x16 .f32) (main_arg8 : FVec F S16 .f32) (main_v13 : IVec S_ 1) (main_v16 : IVec S48x512 1) : IVec S_ 1 :=
  let main_c_5 : IVec S_ 1 := constantI S_ 1 1#1
  let main_v17 : IVec S_ 1 := (fun x v => Host.reduce IntOp.andi x v reducesTo_S48x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S2048x8x8x16 .f32) (main_arg1 : FVec F S2048x16x8 .f32) (main_arg2 : FVec F S2048x8x128 .f32) (main_arg3 : FVec F S48x512 .f32) (main_arg4 : FVec F S512 .f32) (main_arg5 : FVec F S512x512 .f32) (main_arg6 : FVec F S512 .f32) (main_arg7 : FVec F S512x16 .f32) (main_arg8 : FVec F S16 .f32) : IVec S_ 1 :=
  let main_v0 : FVec F S2048x8x8x16 .f32 := Host.absf main_arg0
  let main_cst : FVec F S_ .f32 := constant S_ .f32 0x7F800000#32
  let main_v1 : FVec F S2048x8x8x16 .f32 := broadcastInDim S2048x8x8x16 ![] bcast_S_S2048x8x8x16 main_cst
  let main_v2 : IVec S2048x8x8x16 1 := cmpf .olt main_v0 main_v1
  let main_c : IVec S_ 1 := constantI S_ 1 1#1
  let main_v3 : IVec S_ 1 := (fun x v => Host.reduce IntOp.andi x v reducesTo_S2048x8x8x16_S_d0_1_2_3 h_S_) main_v2 main_c
  let main_v4 : FVec F S2048x16x8 .f32 := Host.absf main_arg1
  let main_cst_0 : FVec F S_ .f32 := constant S_ .f32 0x7F800000#32
  let main_v5 : FVec F S2048x16x8 .f32 := broadcastInDim S2048x16x8 ![] bcast_S_S2048x16x8 main_cst_0
  let main_v6 : IVec S2048x16x8 1 := cmpf .olt main_v4 main_v5
  let main_c_1 : IVec S_ 1 := constantI S_ 1 1#1
  let main_v7 : IVec S_ 1 := (fun x v => Host.reduce IntOp.andi x v reducesTo_S2048x16x8_S_d0_1_2 h_S_) main_v6 main_c_1
  let main_v8 : IVec S_ 1 := andi main_v3 main_v7
  let main_v9 : FVec F S2048x8x128 .f32 := Host.absf main_arg2
  let main_cst_2 : FVec F S_ .f32 := constant S_ .f32 0x7F800000#32
  let main_v10 : FVec F S2048x8x128 .f32 := broadcastInDim S2048x8x128 ![] bcast_S_S2048x8x128 main_cst_2
  let main_v11 : IVec S2048x8x128 1 := cmpf .olt main_v9 main_v10
  let main_c_3 : IVec S_ 1 := constantI S_ 1 1#1
  let main_v12 : IVec S_ 1 := (fun x v => Host.reduce IntOp.andi x v reducesTo_S2048x8x128_S_d0_1_2 h_S_) main_v11 main_c_3
  let main_v13 : IVec S_ 1 := andi main_v8 main_v12
  let main_v14 : FVec F S48x512 .f32 := Host.absf main_arg3
  let main_cst_4 : FVec F S_ .f32 := constant S_ .f32 0x7F800000#32
  let main_v15 : FVec F S48x512 .f32 := broadcastInDim S48x512 ![] bcast_S_S48x512 main_cst_4
  let main_v16 : IVec S48x512 1 := cmpf .olt main_v14 main_v15
  fn_part1 (F := F) main_arg4 main_arg5 main_arg6 main_arg7 main_arg8 main_v13 main_v16
-- ==== Kernel.lean ====
abbrev S2048x8x8x16 : Shape := ⟨4, ![2048, 8, 8, 16]⟩
abbrev S2048x16x8 : Shape := ⟨3, ![2048, 16, 8]⟩
abbrev S2048x8x128 : Shape := ⟨3, ![2048, 8, 128]⟩
abbrev S48x512 : Shape := ⟨2, ![48, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S_ : Shape := ⟨0, ![]⟩
abbrev S2048x8x16 : Shape := ⟨3, ![2048, 8, 16]⟩
abbrev S2048x8x64 : Shape := ⟨3, ![2048, 8, 64]⟩
abbrev S2048x8x8x8 : Shape := ⟨4, ![2048, 8, 8, 8]⟩
abbrev S16384x128 : Shape := ⟨2, ![16384, 128]⟩
abbrev S64x8x16 : Shape := ⟨3, ![64, 8, 16]⟩
abbrev S64x8x8x8 : Shape := ⟨4, ![64, 8, 8, 8]⟩
abbrev S512x128 : Shape := ⟨2, ![512, 128]⟩
abbrev S64x8x1x16 : Shape := ⟨4, ![64, 8, 1, 16]⟩
abbrev S64x8x8x16 : Shape := ⟨4, ![64, 8, 8, 16]⟩
abbrev S64x8x8x48 : Shape := ⟨4, ![64, 8, 8, 48]⟩
abbrev S4096x48 : Shape := ⟨2, ![4096, 48]⟩
abbrev S4096x512 : Shape := ⟨2, ![4096, 512]⟩
abbrev S1x512 : Shape := ⟨2, ![1, 512]⟩
abbrev S4096x16 : Shape := ⟨2, ![4096, 16]⟩
abbrev S1x16 : Shape := ⟨2, ![1, 16]⟩

abbrev nBuf : Space → Nat
  | .hbm => 22
  | .vmem => 16
  | .smem => 0
  | _ => 0

abbrev bufTy : (tb : Table) → Fin (tcTables nBuf tb) → BufTy
  | .hbm, ⟨0, _⟩ => ⟨S2048x8x8x16, .f32⟩
  | .hbm, ⟨1, _⟩ => ⟨S2048x16x8, .f32⟩
  | .hbm, ⟨2, _⟩ => ⟨S2048x8x128, .f32⟩
  | .hbm, ⟨3, _⟩ => ⟨S48x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x16, .f32⟩
  | .hbm, ⟨8, _⟩ => ⟨S16, .f32⟩
  | .hbm, ⟨9, _⟩ => ⟨S_, .f32⟩
  | .hbm, ⟨10, _⟩ => ⟨S2048x8x16, .f32⟩
  | .hbm, ⟨11, _⟩ => ⟨S2048x8x16, .f32⟩
  | .hbm, ⟨12, _⟩ => ⟨S2048x8x64, .f32⟩
  | .hbm, ⟨13, _⟩ => ⟨S2048x8x8x8, .f32⟩
  | .hbm, ⟨14, _⟩ => ⟨S2048x8x8x8, .f32⟩
  | .hbm, ⟨15, _⟩ => ⟨S2048x8x64, .f32⟩
  | .hbm, ⟨16, _⟩ => ⟨S2048x8x8x8, .f32⟩
  | .hbm, ⟨17, _⟩ => ⟨S2048x8x8x8, .f32⟩
  | .hbm, ⟨18, _⟩ => ⟨S512x512, .bf16⟩
  | .hbm, ⟨19, _⟩ => ⟨S512x16, .bf16⟩
  | .hbm, ⟨20, _⟩ => ⟨S16384x128, .f32⟩
  | .hbm, ⟨21, _⟩ => ⟨S2048x8x8x16, .f32⟩
  | .local _ .vmem, ⟨0, _⟩ => ⟨S64x8x16, .f32⟩
  | .local _ .vmem, ⟨1, _⟩ => ⟨S64x8x16, .f32⟩
  | .local _ .vmem, ⟨2, _⟩ => ⟨S64x8x16, .f32⟩
  | .local _ .vmem, ⟨3, _⟩ => ⟨S64x8x16, .f32⟩
  | .local _ .vmem, ⟨4, _⟩ => ⟨S64x8x8x8, .f32⟩
  | .local _ .vmem, ⟨5, _⟩ => ⟨S64x8x8x8, .f32⟩
  | .local _ .vmem, ⟨6, _⟩ => ⟨S64x8x8x8, .f32⟩
  | .local _ .vmem, ⟨7, _⟩ => ⟨S64x8x8x8, .f32⟩
  | .local _ .vmem, ⟨8, _⟩ => ⟨S48x512, .f32⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S512x16, .bf16⟩
  | .local _ .vmem, ⟨13, _⟩ => ⟨S16, .f32⟩
  | .local _ .vmem, ⟨14, _⟩ => ⟨S512x128, .f32⟩
  | .local _ .vmem, ⟨15, _⟩ => ⟨S512x128, .f32⟩
  | _, _ => ⟨S2048x8x8x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8x8x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8x8x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S48x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  reducesTo_S2048x8x8x16_S2048x8x16_d1 : S2048x8x8x16.ReducesTo [1] S2048x8x16
  h_S_ : 0 < S_.numel
  transposes_S2048x16x8_S2048x8x16_0_2_1 : S2048x16x8.Transposes [0, 2, 1] S2048x8x16
  slices_S2048x8x128_S2048x8x64_0_0_0 : S2048x8x128.Slices ![0, 0, 0] S2048x8x64
  shapeCasts_S2048x8x64_S2048x8x8x8 : S2048x8x64.ShapeCasts S2048x8x8x8
  transposes_S2048x8x8x8_S2048x8x8x8_0_2_1_3 : S2048x8x8x8.Transposes [0, 2, 1, 3] S2048x8x8x8
  slices_S2048x8x128_S2048x8x64_0_0_64 : S2048x8x128.Slices ![0, 0, 64] S2048x8x64
  bitsLt_bf16_f32 : FTy.bits .bf16 < FTy.bits .f32
  inb_S64x8x16_S64x8x16_0_0_0 : ∀ a, (![0, 0, 0] : Fin 3 → Nat) a + S64x8x16.size a ≤ S64x8x16.size a
  h_S64x8x16 : 0 < S64x8x16.numel
  shapeCasts_S64x8x16_S64x8x16 : S64x8x16.ShapeCasts S64x8x16
  inb_S64x8x8x8_S64x8x8x8_0_0_0_0 : ∀ a, (![0, 0, 0, 0] : Fin 4 → Nat) a + S64x8x8x8.size a ≤ S64x8x8x8.size a
  h_S64x8x8x8 : 0 < S64x8x8x8.numel
  shapeCasts_S64x8x8x8_S64x8x8x8 : S64x8x8x8.ShapeCasts S64x8x8x8
  shapeCasts_S64x8x16_S64x8x1x16 : S64x8x16.ShapeCasts S64x8x1x16
  shapeCasts_S64x8x1x16_S64x8x1x16 : S64x8x1x16.ShapeCasts S64x8x1x16
  broadcasts_S64x8x1x16_S64x8x8x16 : S64x8x1x16.Broadcasts S64x8x8x16
  concatenates_S64x8x8x16_S64x8x8x16_S64x8x8x8_S64x8x8x8_S64x8x8x48_d3 : Shape.Concatenates [S64x8x8x16, S64x8x8x16, S64x8x8x8, S64x8x8x8] S64x8x8x48 3
  shapeCasts_S64x8x8x48_S4096x48 : S64x8x8x48.ShapeCasts S4096x48
  inb_S48x512_S48x512_0_0 : ∀ a, (![0, 0] : Fin 2 → Nat) a + S48x512.size a ≤ S48x512.size a
  h_S48x512 : 0 < S48x512.numel
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16_S16_0 : ∀ a, (![0] : Fin 1 → Nat) a + S16.size a ≤ S16.size a
  h_S16 : 0 < S16.numel
  shapeCasts_S16_S1x16 : S16.ShapeCasts S1x16
  broadcasts_S1x16_S4096x16 : S1x16.Broadcasts S4096x16
  shapeCasts_S4096x16_S512x128 : S4096x16.ShapeCasts S512x128
  inb_S512x128_S512x128_0_0 : ∀ a, (![0, 0] : Fin 2 → Nat) a + S512x128.size a ≤ S512x128.size a
  h_S512x128 : 0 < S512x128.numel
  shapeCasts_S16384x128_S2048x8x8x16 : S16384x128.ShapeCasts S2048x8x8x16
  dot_S4096x48_S48x512_S4096x512_1_0_0_1_n_n_wf : DotDims.WF S4096x48 S48x512 S4096x512 [1] [0] [0] [1] [] []
  dot_S4096x512_S512x512_S4096x512_1_0_0_1_n_n_wf : DotDims.WF S4096x512 S512x512 S4096x512 [1] [0] [0] [1] [] []
  dot_S4096x512_S512x16_S4096x16_1_0_0_1_n_n_wf : DotDims.WF S4096x512 S512x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x16.size a ≤ S2048x8x16.size a
  hwx0_0 : ∀ i : grid0.Coords, EltTy.bits .f32 = 32 ∨ (Rect.block (s := S2048x8x16) S64x8x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8x16.size a ≤ S2048x8x16.size a
  hwx0_1 : ∀ i : grid0.Coords, EltTy.bits .f32 = 32 ∨ (Rect.block (s := S2048x8x16) S64x8x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8x8x8.size a ≤ S2048x8x8x8.size a
  hwx0_2 : ∀ i : grid0.Coords, EltTy.bits .f32 = 32 ∨ (Rect.block (s := S2048x8x8x8) S64x8x8x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x8x8x8.size a ≤ S2048x8x8x8.size a
  hwx0_3 : ∀ i : grid0.Coords, EltTy.bits .f32 = 32 ∨ (Rect.block (s := S2048x8x8x8) S64x8x8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x512.size a ≤ S48x512.size a
  hwx0_4 : ∀ i : grid0.Coords, EltTy.bits .f32 = 32 ∨ (Rect.block (s := S48x512) S48x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x16.size a ≤ S512x16.size a
  hwx0_8 : ∀ i : grid0.Coords, EltTy.bits .bf16 = 32 ∨ (Rect.block (s := S512x16) S512x16.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16.size a ≤ S16.size a
  hwx0_9 : ∀ i : grid0.Coords, EltTy.bits .f32 = 32 ∨ (Rect.block (s := S16) S16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S16384x128.size a
  hwx0_10 : ∀ i : grid0.Coords, EltTy.bits .f32 = 32 ∨ (Rect.block (s := S16384x128) S512x128.size (cc0_transform_10 i) (hinb0_10 i)).WholeWords (EltTy.packing .f32)

variable [Facts₀]

def dot_S4096x48_S48x512_S4096x512_1_0_0_1_n_n : DotDims S4096x48 S48x512 S4096x512 where
  lhsContracting := [1]
  rhsContracting := [0]
  lhsNonContracting := [0]
  rhsNonContracting := [1]
  lhsBatch := []
  rhsBatch := []
  wf := dot_S4096x48_S48x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x16_S4096x16_1_0_0_1_n_n : DotDims S4096x512 S512x16 S4096x16 where
  lhsContracting := [1]
  rhsContracting := [0]
  lhsNonContracting := [0]
  rhsNonContracting := [1]
  lhsBatch := []
  rhsBatch := []
  wf := dot_S4096x512_S512x16_S4096x16_1_0_0_1_n_n_wf

abbrev win0_0 : Pipeline.Window sig grid0 :=
  Pipeline.Window.ofSpec (Memref.whole main_v0) S64x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x8x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x8x8x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x8x8x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S48x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S512x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2048x8x8x16 : Shape := ⟨4, ![2048, 8, 8, 16]⟩
abbrev S2048x16x8 : Shape := ⟨3, ![2048, 16, 8]⟩
abbrev S2048x8x128 : Shape := ⟨3, ![2048, 8, 128]⟩
abbrev S48x512 : Shape := ⟨2, ![48, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S_ : Shape := ⟨0, ![]⟩
abbrev S2048x8x16 : Shape := ⟨3, ![2048, 8, 16]⟩
abbrev S2048x8x64 : Shape := ⟨3, ![2048, 8, 64]⟩
abbrev S2048x8x8x8 : Shape := ⟨4, ![2048, 8, 8, 8]⟩
abbrev S2048x8x1x16 : Shape := ⟨4, ![2048, 8, 1, 16]⟩
abbrev S2048x8x8x48 : Shape := ⟨4, ![2048, 8, 8, 48]⟩
abbrev S2048x8x8x512 : Shape := ⟨4, ![2048, 8, 8, 512]⟩
abbrev S1x1x1x512 : Shape := ⟨4, ![1, 1, 1, 512]⟩
abbrev S1x1x1x16 : Shape := ⟨4, ![1, 1, 1, 16]⟩

abbrev nBuf : Space → Nat
  | .hbm => 42
  | .vmem => 0
  | .smem => 0
  | _ => 0

abbrev bufTy : (tb : Table) → Fin (tcTables nBuf tb) → BufTy
  | .hbm, ⟨0, _⟩ => ⟨S2048x8x8x16, .f32⟩
  | .hbm, ⟨1, _⟩ => ⟨S2048x16x8, .f32⟩
  | .hbm, ⟨2, _⟩ => ⟨S2048x8x128, .f32⟩
  | .hbm, ⟨3, _⟩ => ⟨S48x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x16, .f32⟩
  | .hbm, ⟨8, _⟩ => ⟨S16, .f32⟩
  | .hbm, ⟨9, _⟩ => ⟨S_, .f32⟩
  | .hbm, ⟨10, _⟩ => ⟨S2048x8x16, .f32⟩
  | .hbm, ⟨11, _⟩ => ⟨S2048x8x16, .f32⟩
  | .hbm, ⟨12, _⟩ => ⟨S2048x8x64, .f32⟩
  | .hbm, ⟨13, _⟩ => ⟨S2048x8x8x8, .f32⟩
  | .hbm, ⟨14, _⟩ => ⟨S2048x8x8x8, .f32⟩
  | .hbm, ⟨15, _⟩ => ⟨S2048x8x64, .f32⟩
  | .hbm, ⟨16, _⟩ => ⟨S2048x8x8x8, .f32⟩
  | .hbm, ⟨17, _⟩ => ⟨S2048x8x8x8, .f32⟩
  | .hbm, ⟨18, _⟩ => ⟨S2048x8x1x16, .f32⟩
  | .hbm, ⟨19, _⟩ => ⟨S2048x8x8x16, .f32⟩
  | .hbm, ⟨20, _⟩ => ⟨S2048x8x1x16, .f32⟩
  | .hbm, ⟨21, _⟩ => ⟨S2048x8x8x16, .f32⟩
  | .hbm, ⟨22, _⟩ => ⟨S2048x8x8x48, .f32⟩
  | .hbm, ⟨23, _⟩ => ⟨S2048x8x8x512, .f32⟩
  | .hbm, ⟨24, _⟩ => ⟨S1x1x1x512, .f32⟩
  | .hbm, ⟨25, _⟩ => ⟨S2048x8x8x512, .f32⟩
  | .hbm, ⟨26, _⟩ => ⟨S2048x8x8x512, .f32⟩
  | .hbm, ⟨27, _⟩ => ⟨S_, .f32⟩
  | .hbm, ⟨28, _⟩ => ⟨S2048x8x8x512, .f32⟩
  | .hbm, ⟨29, _⟩ => ⟨S2048x8x8x512, .f32⟩
  | .hbm, ⟨30, _⟩ => ⟨S2048x8x8x512, .f32⟩
  | .hbm, ⟨31, _⟩ => ⟨S1x1x1x512, .f32⟩
  | .hbm, ⟨32, _⟩ => ⟨S2048x8x8x512, .f32⟩
  | .hbm, ⟨33, _⟩ => ⟨S2048x8x8x512, .f32⟩
  | .hbm, ⟨34, _⟩ => ⟨S_, .f32⟩
  | .hbm, ⟨35, _⟩ => ⟨S2048x8x8x512, .f32⟩
  | .hbm, ⟨36, _⟩ => ⟨S2048x8x8x512, .f32⟩
  | .hbm, ⟨37, _⟩ => ⟨S2048x8x8x16, .f32⟩
  | .hbm, ⟨38, _⟩ => ⟨S1x1x1x16, .f32⟩
  | .hbm, ⟨39, _⟩ => ⟨S2048x8x8x16, .f32⟩
  | .hbm, ⟨40, _⟩ => ⟨S2048x8x8x16, .f32⟩
  | .hbm, ⟨41, _⟩ => ⟨S2048x8x8x16, .f32⟩
  | _, _ => ⟨S2048x8x8x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_cst : Ref sig .tc := ⟨.hbm, 34, rfl⟩
abbrev main_call1_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S2048x8x8x16_S2048x8x16_d1 : S2048x8x8x16.ReducesTo [1] S2048x8x16
  h_S_ : 0 < S_.numel
  transposes_S2048x16x8_S2048x8x16_0_2_1 : S2048x16x8.Transposes [0, 2, 1] S2048x8x16
  slices_S2048x8x128_S2048x8x64_0_0_0 : S2048x8x128.Slices ![0, 0, 0] S2048x8x64
  shapeCasts_S2048x8x64_S2048x8x8x8 : S2048x8x64.ShapeCasts S2048x8x8x8
  transposes_S2048x8x8x8_S2048x8x8x8_0_2_1_3 : S2048x8x8x8.Transposes [0, 2, 1, 3] S2048x8x8x8
  slices_S2048x8x128_S2048x8x64_0_0_64 : S2048x8x128.Slices ![0, 0, 64] S2048x8x64
  bcast_S2048x8x16_S2048x8x1x16_0_1_3 : S2048x8x16.BroadcastsInDim S2048x8x1x16 (![0, 1, 3] : Fin 3 → Fin S2048x8x1x16.rank)
  bcast_S2048x8x1x16_S2048x8x8x16_0_1_2_3 : S2048x8x1x16.BroadcastsInDim S2048x8x8x16 (![0, 1, 2, 3] : Fin 4 → Fin S2048x8x8x16.rank)
  concatenates_S2048x8x8x16_S2048x8x8x16_S2048x8x8x8_S2048x8x8x8_S2048x8x8x48_d3 : Shape.Concatenates [S2048x8x8x16, S2048x8x8x16, S2048x8x8x8, S2048x8x8x8] S2048x8x8x48 3
  bcast_S512_S1x1x1x512_3 : S512.BroadcastsInDim S1x1x1x512 (![3] : Fin 1 → Fin S1x1x1x512.rank)
  bcast_S1x1x1x512_S2048x8x8x512_0_1_2_3 : S1x1x1x512.BroadcastsInDim S2048x8x8x512 (![0, 1, 2, 3] : Fin 4 → Fin S2048x8x8x512.rank)
  bcast_S_S2048x8x8x512 : S_.BroadcastsInDim S2048x8x8x512 (![] : Fin 0 → Fin S2048x8x8x512.rank)
  bcast_S16_S1x1x1x16_3 : S16.BroadcastsInDim S1x1x1x16 (![3] : Fin 1 → Fin S1x1x1x16.rank)
  bcast_S1x1x1x16_S2048x8x8x16_0_1_2_3 : S1x1x1x16.BroadcastsInDim S2048x8x8x16 (![0, 1, 2, 3] : Fin 4 → Fin S2048x8x8x16.rank)
  dot_S2048x8x8x48_S48x512_S2048x8x8x512_3_0_012_1_n_n_wf : DotDims.WF S2048x8x8x48 S48x512 S2048x8x8x512 [3] [0] [0, 1, 2] [1] [] []
  dot_S2048x8x8x512_S512x512_S2048x8x8x512_3_0_012_1_n_n_wf : DotDims.WF S2048x8x8x512 S512x512 S2048x8x8x512 [3] [0] [0, 1, 2] [1] [] []
  dot_S2048x8x8x512_S512x16_S2048x8x8x16_3_0_012_1_n_n_wf : DotDims.WF S2048x8x8x512 S512x16 S2048x8x8x16 [3] [0] [0, 1, 2] [1] [] []

variable [Facts₀]

def dot_S2048x8x8x48_S48x512_S2048x8x8x512_3_0_012_1_n_n : DotDims S2048x8x8x48 S48x512 S2048x8x8x512 where
  lhsContracting := [3]
  rhsContracting := [0]
  lhsNonContracting := [0, 1, 2]
  rhsNonContracting := [1]
  lhsBatch := []
  rhsBatch := []
  wf := dot_S2048x8x8x48_S48x512_S2048x8x8x512_3_0_012_1_n_n_wf
def dot_S2048x8x8x512_S512x512_S2048x8x8x512_3_0_012_1_n_n : DotDims S2048x8x8x512 S512x512 S2048x8x8x512 where
  lhsContracting := [3]
  rhsContracting := [0]
  lhsNonContracting := [0, 1, 2]
  rhsNonContracting := [1]
  lhsBatch := []
  rhsBatch := []
  wf := dot_S2048x8x8x512_S512x512_S2048x8x8x512_3_0_012_1_n_n_wf
def dot_S2048x8x8x512_S512x16_S2048x8x8x16_3_0_012_1_n_n : DotDims S2048x8x8x512 S512x16 S2048x8x8x16 where
  lhsContracting := [3]
  rhsContracting := [0]
  lhsNonContracting := [0, 1, 2]
  rhsNonContracting := [1]
  lhsBatch := []
  rhsBatch := []
  wf := dot_S2048x8x8x512_S512x16_S2048x8x8x16_3_0_012_1_n_n_wf

class Facts : Prop extends Facts₀ where

variable [Facts]
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibPairTile.lean ====
/-
  Layout operations of a kernel that works on a TILE OF PAIRS, read at an index by coordinates.

  A pairwise kernel holds, per grid point, a [a, b] tile indexed by (query row p, key row q), lifts it to
  [a, b, c] by a trailing feature axis, folds the pair axes into one row axis of a·b rows for a matrix product,
  and unfolds and permutes the product [a·b, h] into [h, a, b]. Each lemma reads one such operation at an index
  given by its coordinates and names the operand's index by coordinates; the folded row of the pair (p, q) is
  p·b + q.
-/
import Idealize.ShloMosaic.Lib.Pipeline.Value
import Idealize.ShloMosaic.Lib.ValueIdx
import Idealize.ShloMosaic.Lib.ValueLayout
import Idealize.ShloMosaic.PureOps.Ideal.Laws

noncomputable section

namespace Cert.PairTile

open Idealize.ShloMosaic Idealize.ShloMosaic.ValueIdx

variable {α : Type}

/-- A column [a, 1] broadcast to [a, b] reads, at (p, q), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A tile [a, b] cast to [a, b, 1] reads, at (p, q, u), the tile at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A tile [a, b, 1] broadcast along a trailing axis to [a, b, c] reads, at (p, q, k), the tile at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector [c] cast to [1, 1, c] reads, at (u, v, k), the vector at k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp only [hu, hv, Nat.zero_mul, Nat.zero_add, Nat.mul_one, Nat.add_zero])

/-- A row [1, 1, c] broadcast to [a, b, c] reads, at (p, q, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The pair axes folded: [a, b, c] cast to [n, c] (n = a·b) reads, at (r, k) with r = p·b + q, the tile at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The pair axes unfolded: [n, c] cast to [a, b, c] (n = a·b) reads, at (p, q, k), the matrix at (r, k), r = p·b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- The trailing axis brought to the front: [a, b, c] permuted by [2, 0, 1] reads, at (k, p, q), the tile at (p, q, k). -/
theorem transpose_201_apply {a b c : ℕ} (x : (⟨3, ![a, b, c]⟩ : Shape).Idx → α)
    (h : (⟨3, ![a, b, c]⟩ : Shape).Transposes [2, 0, 1] ⟨3, ![c, a, b]⟩) (k : Fin c) (p : Fin a) (q : Fin b) :
    transpose ⟨3, ![c, a, b]⟩ [2, 0, 1] x h (ix3 k p q) = x (ix3 p q k) :=
  transpose_apply _ x h _ _ fun d => match d with | ⟨0, _⟩ => rfl | ⟨1, _⟩ => rfl | ⟨2, _⟩ => rfl

/-- Coordinate o of the query rows over the tile: a [1, a, 3] block cast to [a, 3], its column o cut out as [a, 1]
    and broadcast over the key axis, reads at (p, q) the block at (0, p, o). -/
theorem queryCoord_apply {a b n : ℕ} (x : (⟨3, ![1, a, n]⟩ : Shape).Idx → α) (o : ℕ) (ho : o < n)
    (hc : (⟨3, ![1, a, n]⟩ : Shape).ShapeCasts ⟨2, ![a, n]⟩)
    (hs : (⟨2, ![a, n]⟩ : Shape).Slices ![0, o] ⟨2, ![a, 1]⟩)
    (hb : (⟨2, ![a, 1]⟩ : Shape).Broadcasts ⟨2, ![a, b]⟩) (p : Fin a) (q : Fin b) :
    broadcastTo ⟨2, ![a, b]⟩ (extractStridedSlice ⟨2, ![a, 1]⟩ ![0, o] (shapeCast ⟨2, ![a, n]⟩ x hc) hs) hb (ix2 p q)
      = x (ix3 (0 : Fin 1) p ⟨o, ho⟩) :=
  (broadcastTo_a1_ab_apply _ hb p q).trans
    ((slice2_axis1_apply o _ hs p (0 : Fin 1) ⟨o, ho⟩ (Nat.add_zero o).symm).trans (shapeCast_1ab_ab_apply x hc p ⟨o, ho⟩))

/-- Coordinate o of the key rows over the tile: a [1, b, 3] block cast to [b, 3] and transposed to [3, b], its row o
    cut out as [1, b] and broadcast over the query axis, reads at (p, q) the block at (0, q, o). -/
theorem keyCoord_apply {a b n : ℕ} (x : (⟨3, ![1, b, n]⟩ : Shape).Idx → α) (o : ℕ) (ho : o < n)
    (hc : (⟨3, ![1, b, n]⟩ : Shape).ShapeCasts ⟨2, ![b, n]⟩)
    (ht : (⟨2, ![b, n]⟩ : Shape).Transposes [1, 0] ⟨2, ![n, b]⟩)
    (hs : (⟨2, ![n, b]⟩ : Shape).Slices ![o, 0] ⟨2, ![1, b]⟩)
    (hb : (⟨2, ![1, b]⟩ : Shape).Broadcasts ⟨2, ![a, b]⟩) (p : Fin a) (q : Fin b) :
    broadcastTo ⟨2, ![a, b]⟩ (extractStridedSlice ⟨2, ![1, b]⟩ ![o, 0] (transpose ⟨2, ![n, b]⟩ [1, 0] (shapeCast ⟨2, ![b, n]⟩ x hc) ht) hs) hb (ix2 p q)
      = x (ix3 (0 : Fin 1) q ⟨o, ho⟩) :=
  (broadcastTo_1b_ab_apply _ hb p q).trans
    ((slice2_axis0_apply o _ hs (0 : Fin 1) q ⟨o, ho⟩ (Nat.add_zero o).symm).trans
      ((transpose_ix2_apply _ ht ⟨o, ho⟩ q).trans (shapeCast_1ab_ab_apply x hc q ⟨o, ho⟩)))

/-- A tile [a, b] lifted along a trailing feature axis to [a, b, c] reads, at (p, q, k), the tile at (p, q). -/
theorem liftTile_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x hc) hb (ix3 p q k) = x (ix2 p q) :=
  (broadcastTo_ab1_abc_apply _ hb p q k).trans (shapeCast_ab_ab1_apply x hc p q 0)

/-- A feature vector [c] lifted over the pair axes to [a, b, c] reads, at (p, q, k), the vector at k. -/
theorem liftVec_apply {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x hc) hb (ix3 p q k) = x (ix1 k) :=
  (broadcastTo_11c_abc_apply _ hb p q k).trans (shapeCast_c_11c_apply x hc 0 0 k)

/-- A bias vector [c] over the folded rows: cast to [1, c] and broadcast to [n, c], it reads at (r, k) the vector at k. -/
theorem biasRows_apply {n c : ℕ} (x : (⟨1, ![c]⟩ : Shape).Idx → α)
    (hc : (⟨1, ![c]⟩ : Shape).ShapeCasts ⟨2, ![1, c]⟩) (hb : (⟨2, ![1, c]⟩ : Shape).Broadcasts ⟨2, ![n, c]⟩)
    (r : Fin n) (k : Fin c) :
    broadcastTo ⟨2, ![n, c]⟩ (shapeCast ⟨2, ![1, c]⟩ x hc) hb (ix2 r k) = x (ix1 k) :=
  (broadcastTo_1b_ab_apply _ hb r k).trans (shapeCast_a_1a_apply x hc 0 k)

end Cert.PairTile

end
-- ==== Proof.LibDense.lean ====
/-
  One dense layer on folded rows, over the extended reals: a kernel's matrix product A · W of an [M, K] by a [K, N]
  operand into a zero accumulator, plus a bias vector [N] cast to [1, N] and broadcast over the M rows
  (jnp.dot(x, W) + b[None, :]), read at (r, j): the sum over k of A(r, k) · W(k, j), plus b(j).
-/
import proofs.«154033_j36867999269161_2_alg».proof.Proof.LibMatmulNN
import proofs.«154033_j36867999269161_2_alg».proof.Proof.LibPairTile

noncomputable section

open scoped BigOperators

namespace Cert.LibDense

open Idealize.ShloMosaic Idealize.ShloMosaic.ValueIdx

/-- (A · W into a zero accumulator) + bias over the rows, at (r, j). -/
theorem dense_apply {M K N : ℕ} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (r : Fin M) (j : Fin N) :
    addf (matmul d prec A W (constant ⟨2, ![M, N]⟩ .f32 0x00000000#32))
        (broadcastTo ⟨2, ![M, N]⟩ (shapeCast ⟨2, ![1, N]⟩ b hc) hb) (ix2 r j)
      = ∑ k : Fin K, A (ix2 r k) * W (ix2 k j) + b (ix1 j) := by
  rw [addf_apply, Cert.LibMatmulNN.matmul_nn_apply d hlc hrc hln hrn hlb hrb prec A W r j,
    Cert.PairTile.biasRows_apply b hc hb r j]

end Cert.LibDense

end
-- ==== Proof.LibRank4.lean ====
/-
  Layout operations on rank-4 tiles [a, b, c, d], read at an index by coordinates.

  A kernel that feeds per-(batch, row, user) feature vectors to a matrix product holds a [a, b, c, d] tile, builds it
  by lifting [a, b, d] tiles over a new third axis and joining four tiles along the last axis, folds the three leading
  axes into one row axis of a·b·c rows, and regroups a [n, d] result into lanes [m, e]. Each lemma reads one such
  operation at an index given by its coordinates and names the operand's index by coordinates. The folded row of
  (p, q, u) is (p·b + q)·c + u.
-/
import Idealize.ShloMosaic.Lib.Pipeline.Value
import Idealize.ShloMosaic.Lib.ValueIdx
import Idealize.ShloMosaic.Lib.ValueLayout

noncomputable section

namespace Cert.LibRank4

open Idealize.ShloMosaic Idealize.ShloMosaic.ValueIdx

variable {α : Type}

/-- A tile [a, b, d] cast to [a, b, 1, d] reads, at (p, q, u, k), the tile at (p, q, k). -/
theorem shapeCast_abd_ab1d_apply {a b d : ℕ} (x : (⟨3, ![a, b, d]⟩ : Shape).Idx → α)
    (h : (⟨3, ![a, b, d]⟩ : Shape).ShapeCasts ⟨4, ![a, b, 1, d]⟩) (p : Fin a) (q : Fin b) (u : Fin 1) (k : Fin d) :
    shapeCast ⟨4, ![a, b, 1, d]⟩ x h (ix4 p q u k) = x (ix3 p q k) :=
  shapeCast_apply x h _ _ (by
    have hu : u.val = 0 := by omega
    rw [Shape.rowMajor_val_four, Shape.rowMajor_val_three]
    show (p.val * b + q.val) * d + k.val = ((p.val * b + q.val) * 1 + u.val) * d + k.val
    rw [hu, Nat.mul_one, Nat.add_zero])

/-- A tile [a, b, 1, d] broadcast along its third axis to [a, b, c, d] reads, at (p, q, u, k), the tile at (p, q, 0, k). -/
theorem broadcastTo_ab1d_abcd_apply {a b c d : ℕ} (v : (⟨4, ![a, b, 1, d]⟩ : Shape).Idx → α)
    (h : (⟨4, ![a, b, 1, d]⟩ : Shape).Broadcasts ⟨4, ![a, b, c, d]⟩) (p : Fin a) (q : Fin b) (u : Fin c) (k : Fin d) :
    broadcastTo ⟨4, ![a, b, c, d]⟩ v h (ix4 p q u k) = v (ix4 p q (0 : Fin 1) k) := by
  refine broadcastTo_apply v h (ix4 p q u k) (ix4 p q (0 : Fin 1) k) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl
  | ⟨3, _⟩ =>
    show k.val = if d = 1 then 0 else k.val
    split
    · have := k.isLt; omega
    · rfl

/-- A tile [a, b, d] lifted over a new third axis to [a, b, c, d] reads, at (p, q, u, k), the tile at (p, q, k). -/
theorem liftThird_apply {a b c d : ℕ} (x : (⟨3, ![a, b, d]⟩ : Shape).Idx → α)
    (hc : (⟨3, ![a, b, d]⟩ : Shape).ShapeCasts ⟨4, ![a, b, 1, d]⟩)
    (hb : (⟨4, ![a, b, 1, d]⟩ : Shape).Broadcasts ⟨4, ![a, b, c, d]⟩) (p : Fin a) (q : Fin b) (u : Fin c) (k : Fin d) :
    broadcastTo ⟨4, ![a, b, c, d]⟩ (shapeCast ⟨4, ![a, b, 1, d]⟩ x hc) hb (ix4 p q u k) = x (ix3 p q k) :=
  (broadcastTo_ab1d_abcd_apply _ hb p q u k).trans (shapeCast_abd_ab1d_apply x hc p q 0 k)

/-- The three leading axes folded: [a, b, c, d] cast to [n, d] (n = a·b·c) reads, at (r, k) with
    r = (p·b + q)·c + u, the tile at (p, q, u, k). -/
theorem shapeCast_abcd_nd_apply {a b c d n : ℕ} (x : (⟨4, ![a, b, c, d]⟩ : Shape).Idx → α)
    (h : (⟨4, ![a, b, c, d]⟩ : Shape).ShapeCasts ⟨2, ![n, d]⟩) (p : Fin a) (q : Fin b) (u : Fin c) (k : Fin d) (r : Fin n)
    (hr : r.val = (p.val * b + q.val) * c + u.val) : shapeCast ⟨2, ![n, d]⟩ x h (ix2 r k) = x (ix4 p q u k) :=
  shapeCast_apply x h _ _ (by
    rw [Shape.rowMajor_val_four, Shape.rowMajor_val_two]
    show ((p.val * b + q.val) * c + u.val) * d + k.val = r.val * d + k.val
    rw [hr])

/-- The three leading axes unfolded: [m, e] cast to [a, b, c, d] reads, at (p, q, u, k), the matrix at the (P, Q) of
    the same row-major position, P·e + Q = ((p·b + q)·c + u)·d + k. -/
theorem shapeCast_me_abcd_apply {m e a b c d : ℕ} (x : (⟨2, ![m, e]⟩ : Shape).Idx → α)
    (h : (⟨2, ![m, e]⟩ : Shape).ShapeCasts ⟨4, ![a, b, c, d]⟩) (p : Fin a) (q : Fin b) (u : Fin c) (k : Fin d)
    (P : Fin m) (Q : Fin e) (hpos : P.val * e + Q.val = ((p.val * b + q.val) * c + u.val) * d + k.val) :
    shapeCast ⟨4, ![a, b, c, d]⟩ x h (ix4 p q u k) = x (ix2 P Q) :=
  shapeCast_apply x h _ _ (by
    rw [Shape.rowMajor_val_four, Shape.rowMajor_val_two]
    exact hpos)

/-- A matrix regrouped: [n, d] cast to [m, e] reads, at (P, Q), the matrix at the (r, k) of the same row-major
    position, r·d + k = P·e + Q. -/
theorem shapeCast_nd_me_apply {n d m e : ℕ} (x : (⟨2, ![n, d]⟩ : Shape).Idx → α)
    (h : (⟨2, ![n, d]⟩ : Shape).ShapeCasts ⟨2, ![m, e]⟩) (r : Fin n) (k : Fin d) (P : Fin m) (Q : Fin e)
    (hpos : r.val * d + k.val = P.val * e + Q.val) : shapeCast ⟨2, ![m, e]⟩ x h (ix2 P Q) = x (ix2 r k) :=
  shapeCast_apply x h _ _ (by
    rw [Shape.rowMajor_val_two, Shape.rowMajor_val_two]
    exact hpos)

/-! ## Four tiles joined along the last axis

Tiles [a, b, c, n0], [a, b, c, n1], [a, b, c, n2], [a, b, c, n3] joined along axis 3: the column f of the result falls
in exactly one operand, at f less the widths before it. -/

section concat4

variable {a b c n0 n1 n2 n3 n : ℕ}
  (x0 : (⟨4, ![a, b, c, n0]⟩ : Shape).Idx → α) (x1 : (⟨4, ![a, b, c, n1]⟩ : Shape).Idx → α)
  (x2 : (⟨4, ![a, b, c, n2]⟩ : Shape).Idx → α) (x3 : (⟨4, ![a, b, c, n3]⟩ : Shape).Idx → α)
  (h : Shape.Concatenates [⟨4, ![a, b, c, n0]⟩, ⟨4, ![a, b, c, n1]⟩, ⟨4, ![a, b, c, n2]⟩, ⟨4, ![a, b, c, n3]⟩]
    ⟨4, ![a, b, c, n]⟩ 3)
  (p : Fin a) (q : Fin b) (u : Fin c) (f : Fin n)

/-- A column of the first operand. -/
theorem concat4_first (g : Fin n0) (hg : g.val = f.val) :
    concatenate ⟨4, ![a, b, c, n]⟩ 3 [⟨⟨4, ![a, b, c, n0]⟩, x0⟩, ⟨⟨4, ![a, b, c, n1]⟩, x1⟩, ⟨⟨4, ![a, b, c, n2]⟩, x2⟩, ⟨⟨4, ![a, b, c, n3]⟩, x3⟩] h
      (ix4 p q u f) = x0 (ix4 p q u g) := by
  refine concatenate_apply_piece (t := ⟨4, ![a, b, c, n]⟩) (3 : Fin 4) [⟨⟨4, ![a, b, c, n0]⟩, x0⟩, ⟨⟨4, ![a, b, c, n1]⟩, x1⟩, ⟨⟨4, ![a, b, c, n2]⟩, x2⟩, ⟨⟨4, ![a, b, c, n3]⟩, x3⟩] h (ix4 p q u f) 0 (by show 0 < 4; omega) _ x0 rfl rfl 0 rfl (ix4 p q u g) (fun ax hax => ?_) ?_
  · match ax with
    | ⟨0, _⟩ => rfl
    | ⟨1, _⟩ => rfl
    | ⟨2, _⟩ => rfl
    | ⟨3, _⟩ => exact absurd rfl hax
  · show 0 + g.val = f.val
    omega

/-- A column of the second operand. -/
theorem concat4_second (g : Fin n1) (hg : n0 + g.val = f.val) :
    concatenate ⟨4, ![a, b, c, n]⟩ 3 [⟨⟨4, ![a, b, c, n0]⟩, x0⟩, ⟨⟨4, ![a, b, c, n1]⟩, x1⟩, ⟨⟨4, ![a, b, c, n2]⟩, x2⟩, ⟨⟨4, ![a, b, c, n3]⟩, x3⟩] h
      (ix4 p q u f) = x1 (ix4 p q u g) := by
  refine concatenate_apply_piece (t := ⟨4, ![a, b, c, n]⟩) (3 : Fin 4) [⟨⟨4, ![a, b, c, n0]⟩, x0⟩, ⟨⟨4, ![a, b, c, n1]⟩, x1⟩, ⟨⟨4, ![a, b, c, n2]⟩, x2⟩, ⟨⟨4, ![a, b, c, n3]⟩, x3⟩] h (ix4 p q u f) 1 (by show 1 < 4; omega) _ x1 rfl rfl (n0 + 0) rfl (ix4 p q u g) (fun ax hax => ?_) ?_
  · match ax with
    | ⟨0, _⟩ => rfl
    | ⟨1, _⟩ => rfl
    | ⟨2, _⟩ => rfl
    | ⟨3, _⟩ => exact absurd rfl hax
  · show n0 + 0 + g.val = f.val
    omega

/-- A column of the third operand. -/
theorem concat4_third (g : Fin n2) (hg : n0 + n1 + g.val = f.val) :
    concatenate ⟨4, ![a, b, c, n]⟩ 3 [⟨⟨4, ![a, b, c, n0]⟩, x0⟩, ⟨⟨4, ![a, b, c, n1]⟩, x1⟩, ⟨⟨4, ![a, b, c, n2]⟩, x2⟩, ⟨⟨4, ![a, b, c, n3]⟩, x3⟩] h
      (ix4 p q u f) = x2 (ix4 p q u g) := by
  refine concatenate_apply_piece (t := ⟨4, ![a, b, c, n]⟩) (3 : Fin 4) [⟨⟨4, ![a, b, c, n0]⟩, x0⟩, ⟨⟨4, ![a, b, c, n1]⟩, x1⟩, ⟨⟨4, ![a, b, c, n2]⟩, x2⟩, ⟨⟨4, ![a, b, c, n3]⟩, x3⟩] h (ix4 p q u f) 2 (by show 2 < 4; omega) _ x2 rfl rfl (n0 + (n1 + 0)) rfl (ix4 p q u g) (fun ax hax => ?_) ?_
  · match ax with
    | ⟨0, _⟩ => rfl
    | ⟨1, _⟩ => rfl
    | ⟨2, _⟩ => rfl
    | ⟨3, _⟩ => exact absurd rfl hax
  · show n0 + (n1 + 0) + g.val = f.val
    omega

/-- A column of the fourth operand. -/
theorem concat4_fourth (g : Fin n3) (hg : n0 + n1 + n2 + g.val = f.val) :
    concatenate ⟨4, ![a, b, c, n]⟩ 3 [⟨⟨4, ![a, b, c, n0]⟩, x0⟩, ⟨⟨4, ![a, b, c, n1]⟩, x1⟩, ⟨⟨4, ![a, b, c, n2]⟩, x2⟩, ⟨⟨4, ![a, b, c, n3]⟩, x3⟩] h
      (ix4 p q u f) = x3 (ix4 p q u g) := by
  refine concatenate_apply_piece (t := ⟨4, ![a, b, c, n]⟩) (3 : Fin 4) [⟨⟨4, ![a, b, c, n0]⟩, x0⟩, ⟨⟨4, ![a, b, c, n1]⟩, x1⟩, ⟨⟨4, ![a, b, c, n2]⟩, x2⟩, ⟨⟨4, ![a, b, c, n3]⟩, x3⟩] h (ix4 p q u f) 3 (by show 3 < 4; omega) _ x3 rfl rfl (n0 + (n1 + (n2 + 0))) rfl (ix4 p q u g) (fun ax hax => ?_) ?_
  · match ax with
    | ⟨0, _⟩ => rfl
    | ⟨1, _⟩ => rfl
    | ⟨2, _⟩ => rfl
    | ⟨3, _⟩ => exact absurd rfl hax
  · show n0 + (n1 + (n2 + 0)) + g.val = f.val
    omega

end concat4

end Cert.LibRank4

end
-- ==== Proof.Spec.lean ====
/-
  The function both programs compute, index by index, over the extended reals.

  For each (batch b, antenna row r, user u) a 48-long feature vector is read off four arrays — 16 entries of the
  transposed F at (b, r), 16 entries of the U-summed C at (b, r), and 8 + 8 entries of the two halves of H at (b, r, u)
  — and goes through three dense layers 48 → 512 → 512 → 16, the first two followed by max(·, 0) and the last by tanh:

    out(b, r, u, m) = tanh( Σ_k max( Σ_h max( Σ_f x(f)·W1(f, h) + b1(h), 0 )·W2(h, k) + b2(k), 0 )·W3(k, m) + b3(m) ).

  Every contraction is one finite sum of products in EReal, so the statement needs no finiteness of the entries:
  the two programs form the SAME sums of the SAME products, only laid out differently in memory.
-/
import Idealize.ShloMosaic.Lib.ValueIdx
import Idealize.ShloMosaic.PureOps.Ideal

noncomputable section

open scoped BigOperators

namespace Cert.Mlp

open Idealize.ShloMosaic Idealize.ShloMosaic.ValueIdx

/-- The zero both programs clamp at: the all-zero float word, read at the extended reals. -/
def zero : EReal := Ideal.ofBits .f32 0x00000000#32

/-- The 48 features of one (b, r, u): columns 0–15 from the first 16-vector, 16–31 from the second, 32–39 and 40–47
    from the two 8-vectors. -/
def feat (v0 v1 : Fin 16 → EReal) (w0 w1 : Fin 8 → EReal) (f : Fin 48) : EReal :=
  if h0 : f.val < 16 then v0 ⟨f.val, h0⟩
  else if h1 : f.val < 32 then v1 ⟨f.val - 16, by omega⟩
  else if h2 : f.val < 40 then w0 ⟨f.val - 32, by omega⟩
  else w1 ⟨f.val - 40, by omega⟩

theorem feat_first (v0 v1 : Fin 16 → EReal) (w0 w1 : Fin 8 → EReal) (f : Fin 48) (h0 : f.val < 16) :
    feat v0 v1 w0 w1 f = v0 ⟨f.val, h0⟩ := by
  unfold feat; rw [dif_pos h0]

theorem feat_second (v0 v1 : Fin 16 → EReal) (w0 w1 : Fin 8 → EReal) (f : Fin 48) (h0 : ¬f.val < 16) (h1 : f.val < 32) :
    feat v0 v1 w0 w1 f = v1 ⟨f.val - 16, by omega⟩ := by
  unfold feat; rw [dif_neg h0, dif_pos h1]

theorem feat_third (v0 v1 : Fin 16 → EReal) (w0 w1 : Fin 8 → EReal) (f : Fin 48) (h1 : ¬f.val < 32) (h2 : f.val < 40) :
    feat v0 v1 w0 w1 f = w0 ⟨f.val - 32, by omega⟩ := by
  unfold feat; rw [dif_neg (by omega), dif_neg h1, dif_pos h2]

theorem feat_fourth (v0 v1 : Fin 16 → EReal) (w0 w1 : Fin 8 → EReal) (f : Fin 48) (h2 : ¬f.val < 40) :
    feat v0 v1 w0 w1 f = w1 ⟨f.val - 40, by have := f.isLt; omega⟩ := by
  unfold feat; rw [dif_neg (by omega), dif_neg (by omega), dif_neg h2]

/-- First hidden layer at unit h. -/
def hid1 (X : Fin 48 → EReal) (W1 : (⟨2, ![48, 512]⟩ : Shape).Idx → EReal) (b1 : (⟨1, ![512]⟩ : Shape).Idx → EReal)
    (h : Fin 512) : EReal :=
  max (∑ f : Fin 48, X f * W1 (ix2 f h) + b1 (ix1 h)) zero

/-- Second hidden layer at unit k. -/
def hid2 (X : Fin 48 → EReal) (W1 : (⟨2, ![48, 512]⟩ : Shape).Idx → EReal) (b1 : (⟨1, ![512]⟩ : Shape).Idx → EReal)
    (W2 : (⟨2, ![512, 512]⟩ : Shape).Idx → EReal) (b2 : (⟨1, ![512]⟩ : Shape).Idx → EReal) (k : Fin 512) : EReal :=
  max (∑ h : Fin 512, hid1 X W1 b1 h * W2 (ix2 h k) + b2 (ix1 k)) zero

/-- The network's output m for the features X. -/
def mlp (X : Fin 48 → EReal) (W1 : (⟨2, ![48, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 16]⟩ : Shape).Idx → EReal) (b3 : (⟨1, ![16]⟩ : Shape).Idx → EReal) (m : Fin 16) : EReal :=
  Ideal.tanh (∑ k : Fin 512, hid2 X W1 b1 W2 b2 k * W3 (ix2 k m) + b3 (ix1 m))

/-- The features of (b, r, u) read off the four arrays: cs is the U-summed C [2048, 8, 16], ft the transposed F
    [2048, 8, 16], hr and hi the two halves of H as [2048, 8, 8, 8] (batch, row, user, antenna). -/
def featAt (cs ft : (⟨3, ![2048, 8, 16]⟩ : Shape).Idx → EReal) (hr hi : (⟨4, ![2048, 8, 8, 8]⟩ : Shape).Idx → EReal)
    (b : Fin 2048) (r u : Fin 8) : Fin 48 → EReal :=
  feat (fun g => ft (ix3 b r g)) (fun g => cs (ix3 b r g)) (fun g => hr (ix4 b r u g)) (fun g => hi (ix4 b r u g))

/-- The result array [2048, 8, 8, 16] as one function of the four gathered arrays and the six parameters. -/
def G (cs ft : (⟨3, ![2048, 8, 16]⟩ : Shape).Idx → EReal) (hr hi : (⟨4, ![2048, 8, 8, 8]⟩ : Shape).Idx → EReal)
    (W1 : (⟨2, ![48, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 16]⟩ : Shape).Idx → EReal) (b3 : (⟨1, ![16]⟩ : Shape).Idx → EReal) :
    (⟨4, ![2048, 8, 8, 16]⟩ : Shape).Idx → EReal :=
  fun i => mlp (featAt cs ft hr hi (i 0) (i 1) (i 2)) W1 b1 W2 b2 W3 b3 (i 3)

theorem G_apply (cs ft : (⟨3, ![2048, 8, 16]⟩ : Shape).Idx → EReal) (hr hi : (⟨4, ![2048, 8, 8, 8]⟩ : Shape).Idx → EReal)
    (W1 : (⟨2, ![48, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 16]⟩ : Shape).Idx → EReal) (b3 : (⟨1, ![16]⟩ : Shape).Idx → EReal)
    (b : Fin 2048) (r u : Fin 8) (m : Fin 16) :
    G cs ft hr hi W1 b1 W2 b2 W3 b3 (ix4 b r u m) = mlp (featAt cs ft hr hi b r u) W1 b1 W2 b2 W3 b3 m := rfl

/-! ## The lane layout

The kernel writes the result as [16384, 128]: lane row P holds the 8 users of (b, r) = (P / 8, P mod 8), and lane Q
the output Q mod 16 of user Q / 16 — the row-major regrouping of [2048, 8, 8, 16]. -/

/-- The batch entry of lane row P. -/
def laneB (P : Nat) (h : P < 16384) : Fin 2048 := ⟨P / 8, by omega⟩
/-- The antenna row of lane row P. -/
def laneR (P : Nat) : Fin 8 := ⟨P % 8, Nat.mod_lt _ (by omega)⟩
/-- The user of lane Q. -/
def laneU (Q : Nat) (h : Q < 128) : Fin 8 := ⟨Q / 16, by omega⟩
/-- The output of lane Q. -/
def laneM (Q : Nat) : Fin 16 := ⟨Q % 16, Nat.mod_lt _ (by omega)⟩

theorem laneB_eq (P : Nat) (h : P < 16384) (b : Fin 2048) (r : Fin 8) (hP : P = b.val * 8 + r.val) : laneB P h = b :=
  Fin.ext (by show P / 8 = b.val; have := r.isLt; omega)
theorem laneR_eq (P : Nat) (b : Fin 2048) (r : Fin 8) (hP : P = b.val * 8 + r.val) : laneR P = r :=
  Fin.ext (by show P % 8 = r.val; have := r.isLt; omega)
theorem laneU_eq (Q : Nat) (h : Q < 128) (u : Fin 8) (mm : Fin 16) (hQ : Q = u.val * 16 + mm.val) : laneU Q h = u :=
  Fin.ext (by show Q / 16 = u.val; have := mm.isLt; omega)
theorem laneM_eq (Q : Nat) (u : Fin 8) (mm : Fin 16) (hQ : Q = u.val * 16 + mm.val) : laneM Q = mm :=
  Fin.ext (by show Q % 16 = mm.val; have := mm.isLt; omega)

/-- The result array in lanes [16384, 128]. -/
def Glanes (cs ft : (⟨3, ![2048, 8, 16]⟩ : Shape).Idx → EReal) (hr hi : (⟨4, ![2048, 8, 8, 8]⟩ : Shape).Idx → EReal)
    (W1 : (⟨2, ![48, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 16]⟩ : Shape).Idx → EReal) (b3 : (⟨1, ![16]⟩ : Shape).Idx → EReal) :
    (⟨2, ![16384, 128]⟩ : Shape).Idx → EReal :=
  fun j => mlp (featAt cs ft hr hi (laneB (j 0).val (idx2_lt0 j)) (laneR (j 0).val) (laneU (j 1).val (idx2_lt1 j)))
    W1 b1 W2 b2 W3 b3 (laneM (j 1).val)

/-- Lane (P, Q) with P = b·8 + r and Q = u·16 + m holds out(b, r, u, m). -/
theorem Glanes_apply (cs ft : (⟨3, ![2048, 8, 16]⟩ : Shape).Idx → EReal) (hr hi : (⟨4, ![2048, 8, 8, 8]⟩ : Shape).Idx → EReal)
    (W1 : (⟨2, ![48, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 16]⟩ : Shape).Idx → EReal) (b3 : (⟨1, ![16]⟩ : Shape).Idx → EReal)
    (j : (⟨2, ![16384, 128]⟩ : Shape).Idx) (b : Fin 2048) (r u : Fin 8) (mm : Fin 16)
    (h0 : (j 0).val = b.val * 8 + r.val) (h1 : (j 1).val = u.val * 16 + mm.val) :
    Glanes cs ft hr hi W1 b1 W2 b2 W3 b3 j = mlp (featAt cs ft hr hi b r u) W1 b1 W2 b2 W3 b3 mm := by
  unfold Glanes
  rw [laneB_eq _ _ b r h0, laneR_eq _ b r h0, laneU_eq _ _ u mm h1, laneM_eq _ u mm h1]

end Cert.Mlp

end
-- ==== Proof.KernelPoint.lean ====
/-
  What the kernel body stores, read at one lane of its output block.

  At a grid point the body loads a [64, 8, 16] block of the U-summed C and of the transposed F, two [64, 8, 8, 8] blocks
  of H's halves, and the six parameter arrays whole. It lifts the two [64, 8, 16] blocks over the user axis, joins the
  four tiles into [64, 8, 8, 48], folds (bb, r, u) into 4096 rows, runs the three dense layers on the rows, and regroups
  the [4096, 16] result into 128-wide lanes [512, 128]. Lane (p, q) of the block, with p = bb·8 + r and q = u·16 + m,
  is row (bb·8 + r)·8 + u, output m: the network's output m for the features of (bb, r, u).
-/
import proofs.«154033_j36867999269161_2_alg».proof.Proof.Gen.KernelIdeal.Skeleton
import proofs.«154033_j36867999269161_2_alg».proof.Proof.LibDense
import proofs.«154033_j36867999269161_2_alg».proof.Proof.LibRank4
import proofs.«154033_j36867999269161_2_alg».proof.Proof.Spec

noncomputable section

open scoped BigOperators

namespace Cert.KernelIdeal.Point

open Cert.KernelIdeal Cert.KernelIdeal.Gen Idealize.ShloMosaic Idealize.ShloMosaic.ValueIdx

/-- The body's feature matrix [4096, 48]: F's block and C's block lifted over the user axis, then H's two blocks, joined
    along the feature axis and folded into rows. -/
def rows (x0 x1 : FVec Ideal S64x8x16 .f32) (x2 x3 : FVec Ideal S64x8x8x8 .f32) : FVec Ideal S4096x48 .f32 :=
  shapeCast S4096x48
    (concatenate S64x8x8x48 3
      [⟨S64x8x8x16, broadcastTo S64x8x8x16 (shapeCast S64x8x1x16 (shapeCast S64x8x1x16 (shapeCast S64x8x16 x1 shapeCasts_S64x8x16_S64x8x16) shapeCasts_S64x8x16_S64x8x1x16) shapeCasts_S64x8x1x16_S64x8x1x16) broadcasts_S64x8x1x16_S64x8x8x16⟩,
       ⟨S64x8x8x16, broadcastTo S64x8x8x16 (shapeCast S64x8x1x16 (shapeCast S64x8x1x16 (shapeCast S64x8x16 x0 shapeCasts_S64x8x16_S64x8x16) shapeCasts_S64x8x16_S64x8x1x16) shapeCasts_S64x8x1x16_S64x8x1x16) broadcasts_S64x8x1x16_S64x8x8x16⟩,
       ⟨S64x8x8x8, shapeCast S64x8x8x8 x2 shapeCasts_S64x8x8x8_S64x8x8x8⟩,
       ⟨S64x8x8x8, shapeCast S64x8x8x8 x3 shapeCasts_S64x8x8x8_S64x8x8x8⟩]
      concatenates_S64x8x8x16_S64x8x8x16_S64x8x8x8_S64x8x8x8_S64x8x8x48_d3)
    shapeCasts_S64x8x8x48_S4096x48

/-- Row (bb·8 + r)·8 + u of the feature matrix holds the 48 features of (bb, r, u). -/
theorem rows_apply (x0 x1 : FVec Ideal S64x8x16 .f32) (x2 x3 : FVec Ideal S64x8x8x8 .f32)
    (bb : Fin 64) (r u : Fin 8) (row : Fin 4096) (hrow : row.val = (bb.val * 8 + r.val) * 8 + u.val) (f : Fin 48) :
    rows x0 x1 x2 x3 (ix2 row f)
      = Cert.Mlp.feat (fun g => x1 (ix3 bb r g)) (fun g => x0 (ix3 bb r g)) (fun g => x2 (ix4 bb r u g)) (fun g => x3 (ix4 bb r u g)) f := by
  unfold rows
  rw [shapeCast_self, shapeCast_self, shapeCast_self, shapeCast_self, shapeCast_self, shapeCast_self]
  refine (Cert.LibRank4.shapeCast_abcd_nd_apply _ _ bb r u f row hrow).trans ?_
  by_cases h0 : f.val < 16
  · rw [Cert.Mlp.feat_first _ _ _ _ f h0]
    refine (Cert.LibRank4.concat4_first _ _ _ _ _ bb r u f ⟨f.val, h0⟩ rfl).trans ?_
    exact Cert.LibRank4.liftThird_apply x1 _ _ bb r u ⟨f.val, h0⟩
  · by_cases h1 : f.val < 32
    · rw [Cert.Mlp.feat_second _ _ _ _ f h0 h1]
      refine (Cert.LibRank4.concat4_second _ _ _ _ _ bb r u f ⟨f.val - 16, by omega⟩ (by show 16 + (f.val - 16) = f.val; omega)).trans ?_
      exact Cert.LibRank4.liftThird_apply x0 _ _ bb r u ⟨f.val - 16, by omega⟩
    · by_cases h2 : f.val < 40
      · rw [Cert.Mlp.feat_third _ _ _ _ f h1 h2]
        exact Cert.LibRank4.concat4_third _ _ _ _ _ bb r u f ⟨f.val - 32, by omega⟩ (by show 16 + 16 + (f.val - 32) = f.val; omega)
      · rw [Cert.Mlp.feat_fourth _ _ _ _ f h2]
        exact Cert.LibRank4.concat4_fourth _ _ _ _ _ bb r u f ⟨f.val - 40, by have := f.isLt; omega⟩
          (by show 16 + 16 + 8 + (f.val - 40) = f.val; omega)

/-- The first hidden activation [4096, 512]: rows · W1 + b1, clamped at zero. -/
def act1 (x0 x1 : FVec Ideal S64x8x16 .f32) (x2 x3 : FVec Ideal S64x8x8x8 .f32) (x4 : FVec Ideal S48x512 .f32)
    (x5 : FVec Ideal S512 .f32) : FVec Ideal S4096x512 .f32 :=
  maximumf
    (addf (matmul dot_S4096x48_S48x512_S4096x512_1_0_0_1_n_n (some .fp32) (rows x0 x1 x2 x3) x4 (constant S4096x512 .f32 0x00000000#32))
      (broadcastTo S4096x512 (shapeCast S1x512 x5 shapeCasts_S512_S1x512) broadcasts_S1x512_S4096x512))
    (broadcast S4096x512 (Scalar.ofBits .f32 0x00000000#32))

/-- The second hidden activation [4096, 512]: act1 · W2 + b2, clamped at zero (the change of float format between the
    layers is the identity on extended reals). -/
def act2 (x0 x1 : FVec Ideal S64x8x16 .f32) (x2 x3 : FVec Ideal S64x8x8x8 .f32) (x4 : FVec Ideal S48x512 .f32)
    (x5 : FVec Ideal S512 .f32) (x6 : FVec Ideal S512x512 .bf16) (x7 : FVec Ideal S512 .f32) : FVec Ideal S4096x512 .f32 :=
  maximumf
    (addf (matmul dot_S4096x512_S512x512_S4096x512_1_0_0_1_n_n none (truncf .bf16 (act1 x0 x1 x2 x3 x4 x5) bitsLt_bf16_f32)
        (shapeCast S512x512 x6 shapeCasts_S512x512_S512x512) (constant S4096x512 .f32 0x00000000#32))
      (broadcastTo S4096x512 (shapeCast S1x512 x7 shapeCasts_S512_S1x512) broadcasts_S1x512_S4096x512))
    (broadcast S4096x512 (Scalar.ofBits .f32 0x00000000#32))

/-- The first payload is the second activation, narrowed. -/
theorem pay2_eq (x0 x1 : FVec Ideal S64x8x16 .f32) (x2 x3 : FVec Ideal S64x8x8x8 .f32) (x4 : FVec Ideal S48x512 .f32)
    (x5 : FVec Ideal S512 .f32) (x6 : FVec Ideal S512x512 .bf16) (x7 : FVec Ideal S512 .f32) :
    k0_pay2 (F := Ideal) x0 x1 x2 x3 x4 x5 x6 x7 = truncf .bf16 (act2 x0 x1 x2 x3 x4 x5 x6 x7) bitsLt_bf16_f32 := rfl

/-- The stored payload: (the narrowed second activation) · W3 + b3 through tanh, regrouped into lanes. -/
theorem pay1_eq (v34 : FVec Ideal S4096x512 .bf16) (x8 : FVec Ideal S512x16 .bf16) (x9 : FVec Ideal S16 .f32) :
    k0_pay1 (F := Ideal) v34 x8 x9 = shapeCast S512x128
      (tanh (addf (matmul dot_S4096x512_S512x16_S4096x16_1_0_0_1_n_n none v34 (shapeCast S512x16 x8 shapeCasts_S512x16_S512x16)
          (constant S4096x16 .f32 0x00000000#32))
        (broadcastTo S4096x16 (shapeCast S1x16 x9 shapeCasts_S16_S1x16) broadcasts_S1x16_S4096x16)))
      shapeCasts_S4096x16_S512x128 := rfl

/-- The first activation at (row, h) is the first hidden layer of the row's features. -/
theorem act1_apply (x0 x1 : FVec Ideal S64x8x16 .f32) (x2 x3 : FVec Ideal S64x8x8x8 .f32) (x4 : FVec Ideal S48x512 .f32)
    (x5 : FVec Ideal S512 .f32) (row : Fin 4096) (X : Fin 48 → EReal) (hX : ∀ f, rows x0 x1 x2 x3 (ix2 row f) = X f)
    (h : Fin 512) : act1 x0 x1 x2 x3 x4 x5 (ix2 row h) = Cert.Mlp.hid1 X x4 x5 h := by
  unfold act1 Cert.Mlp.hid1
  rw [maximumf_apply, broadcast_apply,
    Cert.LibDense.dense_apply dot_S4096x48_S48x512_S4096x512_1_0_0_1_n_n rfl rfl rfl rfl rfl rfl (some .fp32) (rows x0 x1 x2 x3) x4 x5
      shapeCasts_S512_S1x512 broadcasts_S1x512_S4096x512 row h]
  refine congrArg₂ max (congrArg (· + x5 (ix1 h)) (Finset.sum_congr rfl fun f _ => ?_)) rfl
  rw [hX f]

/-- The second activation at (row, k) is the second hidden layer of the row's features. -/
theorem act2_apply (x0 x1 : FVec Ideal S64x8x16 .f32) (x2 x3 : FVec Ideal S64x8x8x8 .f32) (x4 : FVec Ideal S48x512 .f32)
    (x5 : FVec Ideal S512 .f32) (x6 : FVec Ideal S512x512 .bf16) (x7 : FVec Ideal S512 .f32)
    (row : Fin 4096) (X : Fin 48 → EReal) (hX : ∀ f, rows x0 x1 x2 x3 (ix2 row f) = X f) (k : Fin 512) :
    act2 x0 x1 x2 x3 x4 x5 x6 x7 (ix2 row k) = Cert.Mlp.hid2 X x4 x5 x6 x7 k := by
  unfold act2 Cert.Mlp.hid2
  rw [maximumf_apply, broadcast_apply, shapeCast_self,
    Cert.LibDense.dense_apply dot_S4096x512_S512x512_S4096x512_1_0_0_1_n_n rfl rfl rfl rfl rfl rfl none
      (truncf .bf16 (act1 x0 x1 x2 x3 x4 x5) bitsLt_bf16_f32) x6 x7 shapeCasts_S512_S1x512 broadcasts_S1x512_S4096x512 row k]
  refine congrArg₂ max (congrArg (· + x7 (ix1 k)) (Finset.sum_congr rfl fun h _ => ?_)) rfl
  rw [truncf_apply, act1_apply x0 x1 x2 x3 x4 x5 row X hX h]

/-- LANE (p, q) OF THE STORED BLOCK, p = bb·8 + r and q = u·16 + m, is the network's output m for the features of
    (bb, r, u), read off the loaded blocks. -/
theorem pay_apply (x0 x1 : FVec Ideal S64x8x16 .f32) (x2 x3 : FVec Ideal S64x8x8x8 .f32) (x4 : FVec Ideal S48x512 .f32)
    (x5 : FVec Ideal S512 .f32) (x6 : FVec Ideal S512x512 .bf16) (x7 : FVec Ideal S512 .f32)
    (x8 : FVec Ideal S512x16 .bf16) (x9 : FVec Ideal S16 .f32)
    (p : Fin 512) (q : Fin 128) (bb : Fin 64) (r u : Fin 8) (mm : Fin 16)
    (hp : p.val = bb.val * 8 + r.val) (hq : q.val = u.val * 16 + mm.val) :
    k0_pay1 (F := Ideal) (k0_pay2 (F := Ideal) x0 x1 x2 x3 x4 x5 x6 x7) x8 x9 (ix2 p q)
      = Cert.Mlp.mlp (Cert.Mlp.feat (fun g => x1 (ix3 bb r g)) (fun g => x0 (ix3 bb r g)) (fun g => x2 (ix4 bb r u g))
          (fun g => x3 (ix4 bb r u g))) x4 x5 x6 x7 x8 x9 mm := by
  have hr8 := r.isLt
  have hu8 := u.isLt
  have hm16 := mm.isLt
  have hp512 := p.isLt
  let row : Fin 4096 := ⟨p.val * 8 + u.val, by omega⟩
  have hrow : row.val = (bb.val * 8 + r.val) * 8 + u.val := by show p.val * 8 + u.val = _; omega
  have hX := rows_apply x0 x1 x2 x3 bb r u row hrow
  rw [pay1_eq, pay2_eq]
  refine (Cert.LibRank4.shapeCast_nd_me_apply _ shapeCasts_S4096x16_S512x128 row mm p q
    (by show (p.val * 8 + u.val) * 16 + mm.val = p.val * 128 + q.val; omega)).trans ?_
  unfold Cert.Mlp.mlp
  show Ideal.tanh (addf (F := Ideal) _ _ (ix2 row mm)) = _
  rw [shapeCast_self,
    Cert.LibDense.dense_apply dot_S4096x512_S512x16_S4096x16_1_0_0_1_n_n rfl rfl rfl rfl rfl rfl none
      (truncf .bf16 (act2 x0 x1 x2 x3 x4 x5 x6 x7) bitsLt_bf16_f32) x8 x9 shapeCasts_S16_S1x16 broadcasts_S1x16_S4096x16 row mm]
  refine congrArg Ideal.tanh (congrArg (· + x9 (ix1 mm)) (Finset.sum_congr rfl fun k _ => ?_))
  rw [truncf_apply, act2_apply x0 x1 x2 x3 x4 x5 x6 x7 row _ hX k]

/-- The same with every read named: the loaded blocks' entries at (bb, r) and (bb, r, u) and the six parameter blocks
    may be given as whatever they are known to equal. -/
theorem pay_read (x0 x1 : FVec Ideal S64x8x16 .f32) (x2 x3 : FVec Ideal S64x8x8x8 .f32) (x4 : FVec Ideal S48x512 .f32)
    (x5 : FVec Ideal S512 .f32) (x6 : FVec Ideal S512x512 .bf16) (x7 : FVec Ideal S512 .f32)
    (x8 : FVec Ideal S512x16 .bf16) (x9 : FVec Ideal S16 .f32)
    (p : Fin 512) (q : Fin 128) (bb : Fin 64) (r u : Fin 8) (mm : Fin 16)
    (hp : p.val = bb.val * 8 + r.val) (hq : q.val = u.val * 16 + mm.val)
    (v0 v1 : Fin 16 → EReal) (w0 w1 : Fin 8 → EReal)
    (hv0 : ∀ g, x1 (ix3 bb r g) = v0 g) (hv1 : ∀ g, x0 (ix3 bb r g) = v1 g)
    (hw0 : ∀ g, x2 (ix4 bb r u g) = w0 g) (hw1 : ∀ g, x3 (ix4 bb r u g) = w1 g)
    (W1 : (⟨2, ![48, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 16]⟩ : Shape).Idx → EReal) (b3 : (⟨1, ![16]⟩ : Shape).Idx → EReal)
    (e4 : x4 = W1) (e5 : x5 = b1) (e6 : x6 = W2) (e7 : x7 = b2) (e8 : x8 = W3) (e9 : x9 = b3) :
    k0_pay1 (F := Ideal) (k0_pay2 (F := Ideal) x0 x1 x2 x3 x4 x5 x6 x7) x8 x9 (ix2 p q)
      = Cert.Mlp.mlp (Cert.Mlp.feat v0 v1 w0 w1) W1 b1 W2 b2 W3 b3 mm := by
  subst e4 e5 e6 e7 e8 e9
  obtain rfl : v0 = fun g => x1 (ix3 bb r g) := funext fun g => (hv0 g).symm
  obtain rfl : v1 = fun g => x0 (ix3 bb r g) := funext fun g => (hv1 g).symm
  obtain rfl : w0 = fun g => x2 (ix4 bb r u g) := funext fun g => (hw0 g).symm
  obtain rfl : w1 = fun g => x3 (ix4 bb r u g) := funext fun g => (hw1 g).symm
  exact pay_apply x0 x1 x2 x3 x4 x5 x6 x7 x8 x9 p q bb r u mm hp hq

end Cert.KernelIdeal.Point

end
-- ==== Proof.Blocks.lean ====
/-
  From the kernel's grid points to its result array.

  The grid has 32 points; point t stages batch entries 64·t … 64·t + 63 of the four gathered arrays (blocks of 64 along
  the leading axis, everything else whole), the six parameter arrays whole, and writes back lane rows 512·t … 512·t + 511
  of the [16384, 128] result. Lane row 512·t + p, p = bb·8 + r, is (b, r) with b = 64·t + bb: so what point t writes back
  is block t of ONE array, the network's outputs in lanes, and the 32 blocks tile that array.
-/
import proofs.«154033_j36867999269161_2_alg».proof.Proof.Gen.KernelIdeal.Frame
import proofs.«154033_j36867999269161_2_alg».proof.Proof.KernelPoint
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## Where each window's block sits, decided over the 32 points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)
theorem idx3 : ∀ t : Fin cfg0.N, win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)

/-! ## The input blocks, read by coordinates -/

/-- Entry (bb, r, g) of the U-summed C's block at point t is entry (64·t + bb, r, g) of the array. -/
theorem iblk0_apply (c : Dev nD) (t : Fin cfg0.N) (bb : Fin 64) (r : Fin 8) (g : Fin 16) (b : Fin 2048)
    (hb : b.val = t.val * 64 + bb.val) :
    (iblk m c 0 t : S64x8x16.Idx → EReal) (ix3 bb r g) = (V m c main_v0 : S2048x8x16.Idx → EReal) (ix3 b r g) := by
  obtain ⟨e0, e1, e2⟩ := idx0 t
  show (V m c main_v0 : S2048x8x16.Idx → EReal) (((cfg0.win 0).blk t).view.emb (ix3 bb r g)) = _
  refine congrArg (V m c main_v0 : S2048x8x16.Idx → EReal) (funext fun a => Fin.ext ?_)
  match a with
  | ⟨0, _⟩ => show win0_0.index t (0 : Fin 3) * 64 + 1 * bb.val = b.val; rw [e0, hb]; omega
  | ⟨1, _⟩ => show win0_0.index t (1 : Fin 3) * 8 + 1 * r.val = r.val; rw [e1]; omega
  | ⟨2, _⟩ => show win0_0.index t (2 : Fin 3) * 16 + 1 * g.val = g.val; rw [e2]; omega

/-- The same for the transposed F. -/
theorem iblk1_apply (c : Dev nD) (t : Fin cfg0.N) (bb : Fin 64) (r : Fin 8) (g : Fin 16) (b : Fin 2048)
    (hb : b.val = t.val * 64 + bb.val) :
    (iblk m c 1 t : S64x8x16.Idx → EReal) (ix3 bb r g) = (V m c main_v1 : S2048x8x16.Idx → EReal) (ix3 b r g) := by
  obtain ⟨e0, e1, e2⟩ := idx1 t
  show (V m c main_v1 : S2048x8x16.Idx → EReal) (((cfg0.win 1).blk t).view.emb (ix3 bb r g)) = _
  refine congrArg (V m c main_v1 : S2048x8x16.Idx → EReal) (funext fun a => Fin.ext ?_)
  match a with
  | ⟨0, _⟩ => show win0_1.index t (0 : Fin 3) * 64 + 1 * bb.val = b.val; rw [e0, hb]; omega
  | ⟨1, _⟩ => show win0_1.index t (1 : Fin 3) * 8 + 1 * r.val = r.val; rw [e1]; omega
  | ⟨2, _⟩ => show win0_1.index t (2 : Fin 3) * 16 + 1 * g.val = g.val; rw [e2]; omega

/-- Entry (bb, r, u, g) of the block of H's first half at point t is entry (64·t + bb, r, u, g) of the array. -/
theorem iblk2_apply (c : Dev nD) (t : Fin cfg0.N) (bb : Fin 64) (r u g : Fin 8) (b : Fin 2048)
    (hb : b.val = t.val * 64 + bb.val) :
    (iblk m c 2 t : S64x8x8x8.Idx → EReal) (ix4 bb r u g) = (V m c main_v4 : S2048x8x8x8.Idx → EReal) (ix4 b r u g) := by
  obtain ⟨e0, e1, e2, e3⟩ := idx2 t
  show (V m c main_v4 : S2048x8x8x8.Idx → EReal) (((cfg0.win 2).blk t).view.emb (ix4 bb r u g)) = _
  refine congrArg (V m c main_v4 : S2048x8x8x8.Idx → EReal) (funext fun a => Fin.ext ?_)
  match a with
  | ⟨0, _⟩ => show win0_2.index t (0 : Fin 4) * 64 + 1 * bb.val = b.val; rw [e0, hb]; omega
  | ⟨1, _⟩ => show win0_2.index t (1 : Fin 4) * 8 + 1 * r.val = r.val; rw [e1]; omega
  | ⟨2, _⟩ => show win0_2.index t (2 : Fin 4) * 8 + 1 * u.val = u.val; rw [e2]; omega
  | ⟨3, _⟩ => show win0_2.index t (3 : Fin 4) * 8 + 1 * g.val = g.val; rw [e3]; omega

/-- The same for H's second half. -/
theorem iblk3_apply (c : Dev nD) (t : Fin cfg0.N) (bb : Fin 64) (r u g : Fin 8) (b : Fin 2048)
    (hb : b.val = t.val * 64 + bb.val) :
    (iblk m c 3 t : S64x8x8x8.Idx → EReal) (ix4 bb r u g) = (V m c main_v7 : S2048x8x8x8.Idx → EReal) (ix4 b r u g) := by
  obtain ⟨e0, e1, e2, e3⟩ := idx3 t
  show (V m c main_v7 : S2048x8x8x8.Idx → EReal) (((cfg0.win 3).blk t).view.emb (ix4 bb r u g)) = _
  refine congrArg (V m c main_v7 : S2048x8x8x8.Idx → EReal) (funext fun a => Fin.ext ?_)
  match a with
  | ⟨0, _⟩ => show win0_3.index t (0 : Fin 4) * 64 + 1 * bb.val = b.val; rw [e0, hb]; omega
  | ⟨1, _⟩ => show win0_3.index t (1 : Fin 4) * 8 + 1 * r.val = r.val; rw [e1]; omega
  | ⟨2, _⟩ => show win0_3.index t (2 : Fin 4) * 8 + 1 * u.val = u.val; rw [e2]; omega
  | ⟨3, _⟩ => show win0_3.index t (3 : Fin 4) * 8 + 1 * g.val = g.val; rw [e3]; omega

/-- The six parameter arrays are staged whole at every point. -/
theorem iblk4_eq (c : Dev nD) (t : Fin cfg0.N) :
    (iblk m c 4 t : S48x512.Idx → EReal) = (V m c main_arg3 : S48x512.Idx → EReal) := by
  obtain ⟨e0, e1⟩ := idx4 t
  funext y
  show (V m c main_arg3 : S48x512.Idx → EReal) (((cfg0.win 4).blk t).view.emb y) = _
  refine congrArg (V m c main_arg3 : S48x512.Idx → EReal) (funext fun a => Fin.ext ?_)
  match a with
  | ⟨0, _⟩ => show win0_4.index t (0 : Fin 2) * 48 + 1 * (y 0).val = (y 0).val; rw [e0]; omega
  | ⟨1, _⟩ => show win0_4.index t (1 : Fin 2) * 512 + 1 * (y 1).val = (y 1).val; rw [e1]; omega

theorem iblk5_eq (c : Dev nD) (t : Fin cfg0.N) :
    (iblk m c 5 t : S512.Idx → EReal) = (V m c main_arg4 : S512.Idx → EReal) := by
  have e0 := idx5 t
  funext y
  show (V m c main_arg4 : S512.Idx → EReal) (((cfg0.win 5).blk t).view.emb y) = _
  refine congrArg (V m c main_arg4 : S512.Idx → EReal) (funext fun a => Fin.ext ?_)
  match a with
  | ⟨0, _⟩ => show win0_5.index t (0 : Fin 1) * 512 + 1 * (y 0).val = (y 0).val; rw [e0]; omega

theorem iblk6_eq (c : Dev nD) (t : Fin cfg0.N) :
    (iblk m c 6 t : S512x512.Idx → EReal) = (V m c main_v8 : S512x512.Idx → EReal) := by
  obtain ⟨e0, e1⟩ := idx6 t
  funext y
  show (V m c main_v8 : S512x512.Idx → EReal) (((cfg0.win 6).blk t).view.emb y) = _
  refine congrArg (V m c main_v8 : S512x512.Idx → EReal) (funext fun a => Fin.ext ?_)
  match a with
  | ⟨0, _⟩ => show win0_6.index t (0 : Fin 2) * 512 + 1 * (y 0).val = (y 0).val; rw [e0]; omega
  | ⟨1, _⟩ => show win0_6.index t (1 : Fin 2) * 512 + 1 * (y 1).val = (y 1).val; rw [e1]; omega

theorem iblk7_eq (c : Dev nD) (t : Fin cfg0.N) :
    (iblk m c 7 t : S512.Idx → EReal) = (V m c main_arg6 : S512.Idx → EReal) := by
  have e0 := idx7 t
  funext y
  show (V m c main_arg6 : S512.Idx → EReal) (((cfg0.win 7).blk t).view.emb y) = _
  refine congrArg (V m c main_arg6 : S512.Idx → EReal) (funext fun a => Fin.ext ?_)
  match a with
  | ⟨0, _⟩ => show win0_7.index t (0 : Fin 1) * 512 + 1 * (y 0).val = (y 0).val; rw [e0]; omega

theorem iblk8_eq (c : Dev nD) (t : Fin cfg0.N) :
    (iblk m c 8 t : S512x16.Idx → EReal) = (V m c main_v9 : S512x16.Idx → EReal) := by
  obtain ⟨e0, e1⟩ := idx8 t
  funext y
  show (V m c main_v9 : S512x16.Idx → EReal) (((cfg0.win 8).blk t).view.emb y) = _
  refine congrArg (V m c main_v9 : S512x16.Idx → EReal) (funext fun a => Fin.ext ?_)
  match a with
  | ⟨0, _⟩ => show win0_8.index t (0 : Fin 2) * 512 + 1 * (y 0).val = (y 0).val; rw [e0]; omega
  | ⟨1, _⟩ => show win0_8.index t (1 : Fin 2) * 16 + 1 * (y 1).val = (y 1).val; rw [e1]; omega

theorem iblk9_eq (c : Dev nD) (t : Fin cfg0.N) :
    (iblk m c 9 t : S16.Idx → EReal) = (V m c main_arg8 : S16.Idx → EReal) := by
  have e0 := idx9 t
  funext y
  show (V m c main_arg8 : S16.Idx → EReal) (((cfg0.win 9).blk t).view.emb y) = _
  refine congrArg (V m c main_arg8 : S16.Idx → EReal) (funext fun a => Fin.ext ?_)
  match a with
  | ⟨0, _⟩ => show win0_9.index t (0 : Fin 1) * 16 + 1 * (y 0).val = (y 0).val; rw [e0]; omega

/-! ## The result in lanes, and the point's write-back as its block -/

/-- The network's outputs in lanes [16384, 128], from the arrays as the region finds them. -/
def lanes (c : Dev nD) : S16384x128.Idx → EReal :=
  Cert.Mlp.Glanes (V m c main_v0) (V m c main_v1) (V m c main_v4) (V m c main_v7) (V m c main_arg3) (V m c main_arg4)
    (V m c main_v8) (V m c main_arg6) (V m c main_v9) (V m c main_arg8)

/-- Lane (p, q) of what the body stores at point t is lane (512·t + p, q) of the result. -/
theorem out_eq (c : Dev nD) (t : Fin cfg0.N) (j : S512x128.Idx) :
    k0_pay1 (F := Ideal) (k0_pay2 (F := Ideal) (iblk m c 0 t) (iblk m c 1 t) (iblk m c 2 t) (iblk m c 3 t) (iblk m c 4 t)
        (iblk m c 5 t) (iblk m c 6 t) (iblk m c 7 t)) (iblk m c 8 t) (iblk m c 9 t) j
      = lanes m c (((cfg0.win 10).blk t).view.emb j) := by
  obtain ⟨p, q, rfl⟩ : ∃ (p : Fin 512) (q : Fin 128), j = ix2 p q := ⟨j 0, j 1, eq_ix2 j⟩
  obtain ⟨e0, e1⟩ := idx10 t
  have hN : t.val < 32 := lt_of_lt_of_eq t.isLt (N_0 : cfg0.N = 32)
  have hp := p.isLt
  have hq := q.isLt
  let bb : Fin 64 := ⟨p.val / 8, by omega⟩
  let r : Fin 8 := ⟨p.val % 8, by omega⟩
  let u : Fin 8 := ⟨q.val / 16, by omega⟩
  let mm : Fin 16 := ⟨q.val % 16, by omega⟩
  let b : Fin 2048 := ⟨t.val * 64 + p.val / 8, by omega⟩
  have hb : b.val = t.val * 64 + bb.val := rfl
  unfold lanes
  rw [Cert.Mlp.Glanes_apply _ _ _ _ _ _ _ _ _ _ (((cfg0.win 10).blk t).view.emb (ix2 p q)) b r u mm
    (by show win0_10.index t (0 : Fin 2) * 512 + 1 * p.val = (t.val * 64 + p.val / 8) * 8 + p.val % 8; rw [e0]; omega)
    (by show win0_10.index t (1 : Fin 2) * 128 + 1 * q.val = q.val / 16 * 16 + q.val % 16; rw [e1]; omega)]
  exact Cert.KernelIdeal.Point.pay_read (iblk m c 0 t) (iblk m c 1 t) (iblk m c 2 t) (iblk m c 3 t) (iblk m c 4 t)
    (iblk m c 5 t) (iblk m c 6 t) (iblk m c 7 t) (iblk m c 8 t) (iblk m c 9 t) p q bb r u mm
    (by show p.val = p.val / 8 * 8 + p.val % 8; omega) (by show q.val = q.val / 16 * 16 + q.val % 16; omega)
    _ _ _ _
    (fun g => iblk1_apply m c t bb r g b hb) (fun g => iblk0_apply m c t bb r g b hb)
    (fun g => iblk2_apply m c t bb r u g b hb) (fun g => iblk3_apply m c t bb r u g b hb)
    _ _ _ _ _ _
    (iblk4_eq m c t) (iblk5_eq m c t) (iblk6_eq m c t) (iblk7_eq m c t) (iblk8_eq m c t) (iblk9_eq m c t)

/-- WHAT POINT t WRITES BACK is block t of the lane array. -/
theorem flushed_eq (c : Dev nD) (t : Fin cfg0.N) :
    (dats m 0 c).flushed 10 t = ((cfg0.win 10).blk t).view.read (Elt Ideal) (lanes m c) := by
  show (cfg0.win 10).cut (grid0.coords t) ((dats m 0 c).after 10 t) = _
  rw [after0_10]
  unfold out0_10
  rw [View.canon_unit_zero hz2]
  simp only [View.ld_unit_zero (S := S64x8x16) hz3, View.ld_unit_zero (S := S64x8x8x8) hz4, View.ld_unit_zero (S := S48x512) hz2,
    View.ld_unit_zero (S := S512) hz1, View.ld_unit_zero (S := S512x512) hz2, View.ld_unit_zero (S := S512x16) hz2,
    View.ld_unit_zero (S := S16) hz1]
  funext j
  exact out_eq m c t j

/-- An index of the lane array is in point t's block iff each coordinate is in the block's range on its axis. -/
theorem mem_blk (t : Fin cfg0.N) (i : S16384x128.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v10).slice (win0_10.rect t)).set ↔ _
  rw [View.set_slice_whole, Rect.mem_set_unit]
  exact Iff.rfl

/-- The 32 blocks of 512 lane rows tile the 16384 lane rows: lane row P is in the block of point P / 512. -/
theorem cover (i : S16384x128.Idx) :
    ∃ t : Fin cfg0.N, (cfg0.win 10).flush t = true ∧ i ∈ ((cfg0.win 10).blk t).view.set := by
  have hi0 : (i 0).val < 16384 := idx2_lt0 i
  have hi1 : (i 1).val < 128 := idx2_lt1 i
  let t : Fin cfg0.N := ⟨(i 0).val / 512, by rw [show cfg0.N = 32 from N_0]; omega⟩
  obtain ⟨e0, e1⟩ := idx10 t
  refine ⟨t, flush0_10 t, ?_⟩
  rw [mem_blk]
  intro a
  match a with
  | ⟨0, _⟩ =>
    show win0_10.index t (0 : Fin 2) * 512 ≤ (i 0).val ∧ (i 0).val < win0_10.index t (0 : Fin 2) * 512 + 512
    rw [e0]; show (i 0).val / 512 * 512 ≤ (i 0).val ∧ (i 0).val < (i 0).val / 512 * 512 + 512; omega
  | ⟨1, _⟩ =>
    show win0_10.index t (1 : Fin 2) * 128 ≤ (i 1).val ∧ (i 1).val < win0_10.index t (1 : Fin 2) * 128 + 128
    rw [e1]; omega

/-- THE LANE ARRAY after the region: the network's outputs in lanes. -/
theorem final (c : Dev nD) : (dats m 0 c).arrAt 10 cfg0.N = lanes m c :=
  (dats m 0 c).arrAt_eq_of_cover 10 (lanes m c) (fun t _ => flushed_eq m c t) (cover)

end Cert.KernelIdeal.Blocks

end
-- ==== Proof.KernelRun.lean ====
/-
  The idealized kernel's run, read: its result array as one function of the arrays the region finds.

  After the region the host reshapes the lane array [16384, 128] to [2048, 8, 8, 16]; the reshape keeps row-major
  positions, and lane (b·8 + r, u·16 + m) sits at position ((b·8 + r)·8 + u)·16 + m, which is where (b, r, u, m) sits
  in the result. So the result at (b, r, u, m) is the network's output m for the features of (b, r, u): the
  specification's G of the four gathered arrays and the six parameter arrays as the region finds them.
-/
import proofs.«154033_j36867999269161_2_alg».proof.Proof.Blocks
import Idealize.ShloMosaic.Lib.StableHlo.Run

set_option maxRecDepth 16384

noncomputable section

namespace Cert.KernelIdeal.KRun

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result array, from the arrays as the region finds them. -/
def result (c : Dev nD) : S2048x8x8x16.Idx → EReal :=
  Cert.Mlp.G (V m c main_v0) (V m c main_v1) (V m c main_v4) (V m c main_v7) (V m c main_arg3) (V m c main_arg4)
    (V m c main_v8) (V m c main_arg6) (V m c main_v9) (V m c main_arg8)

/-- The lane array regrouped to [2048, 8, 8, 16] is the result array. -/
theorem reshape_lanes (c : Dev nD) :
    (shapeCast S2048x8x8x16 (Cert.KernelIdeal.Blocks.lanes m c) shapeCasts_S16384x128_S2048x8x8x16 : S2048x8x8x16.Idx → EReal)
      = result m c := by
  funext i
  obtain ⟨b, r, u, mm, rfl⟩ : ∃ (b : Fin 2048) (r u : Fin 8) (mm : Fin 16), i = ix4 b r u mm :=
    ⟨i 0, i 1, i 2, i 3, eq_ix4 i⟩
  have hb := b.isLt
  have hr := r.isLt
  have hu := u.isLt
  have hm := mm.isLt
  let P : Fin 16384 := ⟨b.val * 8 + r.val, by omega⟩
  let Q : Fin 128 := ⟨u.val * 16 + mm.val, by omega⟩
  refine (Cert.LibRank4.shapeCast_me_abcd_apply _ shapeCasts_S16384x128_S2048x8x8x16 b r u mm P Q
    (by show (b.val * 8 + r.val) * 128 + (u.val * 16 + mm.val) = ((b.val * 8 + r.val) * 8 + u.val) * 16 + mm.val; omega)).trans ?_
  unfold Cert.KernelIdeal.Blocks.lanes result
  rw [Cert.Mlp.G_apply]
  exact Cert.Mlp.Glanes_apply _ _ _ _ _ _ _ _ _ _ (ix2 P Q) b r u mm rfl rfl

/-- What the host lines after the region leave in the result buffer: the reshape of the lane array the region left. -/
theorem tail_eq (c : Dev nD) :
    Pipeline.afterTail₀ cfgs (dats m) 0 (V0 m) [hostOps1] c main_v11 = result m c := by
  have e : Pipeline.withArrays (cfgs 0).spec c (V0 m c) (fun w => (dats m 0 c).arrAt w (cfgs 0).N) (Proc.devRef .tc main_v10)
      = Cert.KernelIdeal.Blocks.lanes m c :=
    (Pipeline.withArrays_arr spec0 launch0.win.arr_inj c (V0 m c) (fun w => (dats m 0 c).arrAt w cfg0.N) 10).trans
      (Cert.KernelIdeal.Blocks.final m c)
  unfold Pipeline.afterTail₀
  show StableHlo.after hostOps1 _ (Proc.devRef .tc main_v11) = _
  after_results
  rw [← reshape_lanes m c]
  funext i
  show shapeCast S2048x8x8x16 (Pipeline.withArrays (cfgs 0).spec c (V0 m c) (fun w => (dats m 0 c).arrAt w (cfgs 0).N)
    (Proc.devRef .tc main_v10)) shapeCasts_S16384x128_S2048x8x8x16 i = _
  rw [e]

/-- THE RUN, READ: every weakly fair execution of the idealized kernel's @main terminates with the result array at
    the specification's function of the arrays the region finds, and the nine arguments unchanged. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v11 (Pipeline.mem_restRefs_of main_v11 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      ((h c).1 9).trans (((dats m 0 c).arrAt_in 9 rfl _).trans ((A_eq m c 9).trans (V_main_arg8 m c)))⟩)
    (run_main m ρ)

/-! ## The arrays the region finds, as host operations of the arguments -/

/-- The U-summed C. -/
theorem V_v0 (c : Dev nD) : (V m c main_v0 : S2048x8x16.Idx → EReal)
    = Host.reduceAdd (F := Ideal) (m ((c : Thread nD τ).loc main_arg0)) (constant S_ .f32 0x00000000#32)
        reducesTo_S2048x8x8x16_S2048x8x16_d1 h_S_ := by
  show StableHlo.after hostOps0 (fun b => m (c, b)) (Proc.devRef .tc main_v0) = _
  after_results

/-- The transposed F. -/
theorem V_v1 (c : Dev nD) : (V m c main_v1 : S2048x8x16.Idx → EReal)
    = transpose S2048x8x16 [0, 2, 1] (m ((c : Thread nD τ).loc main_arg1)) transposes_S2048x16x8_S2048x8x16_0_2_1 := by
  show StableHlo.after hostOps0 (fun b => m (c, b)) (Proc.devRef .tc main_v1) = _
  after_results

/-- H's first half, as (batch, row, user, antenna). -/
theorem V_v4 (c : Dev nD) : (V m c main_v4 : S2048x8x8x8.Idx → EReal)
    = transpose S2048x8x8x8 [0, 2, 1, 3]
        (shapeCast S2048x8x8x8 (extractStridedSlice S2048x8x64 ![0, 0, 0] (m ((c : Thread nD τ).loc main_arg2))
          slices_S2048x8x128_S2048x8x64_0_0_0) shapeCasts_S2048x8x64_S2048x8x8x8)
        transposes_S2048x8x8x8_S2048x8x8x8_0_2_1_3 := by
  show StableHlo.after hostOps0 (fun b => m (c, b)) (Proc.devRef .tc main_v4) = _
  after_results
  rfl

/-- H's second half, as (batch, row, user, antenna). -/
theorem V_v7 (c : Dev nD) : (V m c main_v7 : S2048x8x8x8.Idx → EReal)
    = transpose S2048x8x8x8 [0, 2, 1, 3]
        (shapeCast S2048x8x8x8 (extractStridedSlice S2048x8x64 ![0, 0, 64] (m ((c : Thread nD τ).loc main_arg2))
          slices_S2048x8x128_S2048x8x64_0_0_64) shapeCasts_S2048x8x64_S2048x8x8x8)
        transposes_S2048x8x8x8_S2048x8x8x8_0_2_1_3 := by
  show StableHlo.after hostOps0 (fun b => m (c, b)) (Proc.devRef .tc main_v7) = _
  after_results
  rfl

/-- W2 narrowed: on extended reals the change of float format is the identity. -/
theorem V_v8 (c : Dev nD) : (V m c main_v8 : S512x512.Idx → EReal) = m ((c : Thread nD τ).loc main_arg5) := by
  show StableHlo.after hostOps0 (fun b => m (c, b)) (Proc.devRef .tc main_v8) = _
  after_results
  rfl

/-- W3 narrowed, likewise. -/
theorem V_v9 (c : Dev nD) : (V m c main_v9 : S512x16.Idx → EReal) = m ((c : Thread nD τ).loc main_arg7) := by
  show StableHlo.after hostOps0 (fun b => m (c, b)) (Proc.devRef .tc main_v9) = _
  after_results
  rfl

end Cert.KernelIdeal.KRun

end
-- ==== Proof.Reference.lean ====
/-
  The reference, read index by index.

  The reference builds the whole [2048, 8, 8, 48] feature array on the host — the transposed F and the U-summed C
  broadcast over the user axis, then H's two halves, joined along the last axis — and contracts its last axis with W1,
  W2, W3 in turn, adding the bias and clamping at zero (the last layer through tanh). Read at (b, r, u, m), each
  contraction is the sum over the contracted coordinate of the left operand at (b, r, u, ·) times the weight, so the
  result is the network's output m for the features of (b, r, u): the specification's G of the four gathered arrays.
-/
import proofs.«154033_j36867999269161_2_alg».proof.Proof.Gen.ReferenceIdeal.Read
import proofs.«154033_j36867999269161_2_alg».proof.Proof.LibRank4
import proofs.«154033_j36867999269161_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The composed index maps at coordinates -/

theorem idx9_8 (b : Fin 2048) (r u : Fin 8) (g : Fin 16) : idx_main_v8 (idx_main_v9 (ix4 b r u g)) = ix3 b r g :=
  funext fun a => Fin.ext (by match a with | ⟨0, _⟩ => rfl | ⟨1, _⟩ => rfl | ⟨2, _⟩ => rfl)
theorem idx11_10 (b : Fin 2048) (r u : Fin 8) (g : Fin 16) : idx_main_v10 (idx_main_v11 (ix4 b r u g)) = ix3 b r g :=
  funext fun a => Fin.ext (by match a with | ⟨0, _⟩ => rfl | ⟨1, _⟩ => rfl | ⟨2, _⟩ => rfl)
theorem lidx13 (b : Fin 2048) (r u : Fin 8) (h : Fin 512) (k : Fin 48) : lidx_main_v13 (ix4 b r u h) k = ix4 b r u k :=
  funext fun a => Fin.ext (by match a with | ⟨0, _⟩ => rfl | ⟨1, _⟩ => rfl | ⟨2, _⟩ => rfl | ⟨3, _⟩ => rfl)
theorem ridx13 (b : Fin 2048) (r u : Fin 8) (h : Fin 512) (k : Fin 48) : ridx_main_v13 (ix4 b r u h) k = ix2 k h :=
  funext fun a => Fin.ext (by match a with | ⟨0, _⟩ => rfl | ⟨1, _⟩ => rfl)
theorem idx15_14 (b : Fin 2048) (r u : Fin 8) (h : Fin 512) : idx_main_v14 (idx_main_v15 (ix4 b r u h)) = ix1 h :=
  funext fun a => Fin.ext (by match a with | ⟨0, _⟩ => rfl)
theorem lidx18 (b : Fin 2048) (r u : Fin 8) (k : Fin 512) (h : Fin 512) : lidx_main_v18 (ix4 b r u k) h = ix4 b r u h :=
  funext fun a => Fin.ext (by match a with | ⟨0, _⟩ => rfl | ⟨1, _⟩ => rfl | ⟨2, _⟩ => rfl | ⟨3, _⟩ => rfl)
theorem ridx18 (b : Fin 2048) (r u : Fin 8) (k : Fin 512) (h : Fin 512) : ridx_main_v18 (ix4 b r u k) h = ix2 h k :=
  funext fun a => Fin.ext (by match a with | ⟨0, _⟩ => rfl | ⟨1, _⟩ => rfl)
theorem idx20_19 (b : Fin 2048) (r u : Fin 8) (k : Fin 512) : idx_main_v19 (idx_main_v20 (ix4 b r u k)) = ix1 k :=
  funext fun a => Fin.ext (by match a with | ⟨0, _⟩ => rfl)
theorem lidx23 (b : Fin 2048) (r u : Fin 8) (mm : Fin 16) (k : Fin 512) : lidx_main_v23 (ix4 b r u mm) k = ix4 b r u k :=
  funext fun a => Fin.ext (by match a with | ⟨0, _⟩ => rfl | ⟨1, _⟩ => rfl | ⟨2, _⟩ => rfl | ⟨3, _⟩ => rfl)
theorem ridx23 (b : Fin 2048) (r u : Fin 8) (mm : Fin 16) (k : Fin 512) : ridx_main_v23 (ix4 b r u mm) k = ix2 k mm :=
  funext fun a => Fin.ext (by match a with | ⟨0, _⟩ => rfl | ⟨1, _⟩ => rfl)
theorem idx25_24 (b : Fin 2048) (r u : Fin 8) (mm : Fin 16) : idx_main_v24 (idx_main_v25 (ix4 b r u mm)) = ix1 mm :=
  funext fun a => Fin.ext (by match a with | ⟨0, _⟩ => rfl)

/-! ## The features -/

/-- The reference's feature array at (b, r, u, f) is feature f of (b, r, u) off the four gathered arrays. -/
theorem feat_apply (x0 : (⟨S2048x8x8x16, .f32⟩ : BufTy).Contents (Elt Ideal)) (x1 : (⟨S2048x16x8, .f32⟩ : BufTy).Contents (Elt Ideal)) (x2 : (⟨S2048x8x128, .f32⟩ : BufTy).Contents (Elt Ideal))
    (b : Fin 2048) (r u : Fin 8) (f : Fin 48) :
    val_main_v12 (F := Ideal) x0 x1 x2 (ix4 b r u f)
      = Cert.Mlp.featAt (val_main_v0 (F := Ideal) x0) (val_main_v1 (F := Ideal) x1) (val_main_v4 (F := Ideal) x2)
          (val_main_v7 (F := Ideal) x2) b r u f := by
  unfold val_main_v12 Cert.Mlp.featAt
  by_cases h0 : f.val < 16
  · rw [Cert.Mlp.feat_first _ _ _ _ f h0]
    refine (Cert.LibRank4.concat4_first _ _ _ _ _ b r u f ⟨f.val, h0⟩ rfl).trans ?_
    rw [val_main_v9_apply, val_main_v8_apply, idx9_8]
  · by_cases h1 : f.val < 32
    · rw [Cert.Mlp.feat_second _ _ _ _ f h0 h1]
      refine (Cert.LibRank4.concat4_second _ _ _ _ _ b r u f ⟨f.val - 16, by omega⟩ (by show 16 + (f.val - 16) = f.val; omega)).trans ?_
      rw [val_main_v11_apply, val_main_v10_apply, idx11_10]
    · by_cases h2 : f.val < 40
      · rw [Cert.Mlp.feat_third _ _ _ _ f h1 h2]
        exact Cert.LibRank4.concat4_third _ _ _ _ _ b r u f ⟨f.val - 32, by omega⟩ (by show 16 + 16 + (f.val - 32) = f.val; omega)
      · rw [Cert.Mlp.feat_fourth _ _ _ _ f h2]
        exact Cert.LibRank4.concat4_fourth _ _ _ _ _ b r u f ⟨f.val - 40, by have := f.isLt; omega⟩
          (by show 16 + 16 + 8 + (f.val - 40) = f.val; omega)

/-! ## The three layers -/

/-- The first clamped layer at (b, r, u, h). -/
theorem hid1_apply (x0 : (⟨S2048x8x8x16, .f32⟩ : BufTy).Contents (Elt Ideal)) (x1 : (⟨S2048x16x8, .f32⟩ : BufTy).Contents (Elt Ideal)) (x2 : (⟨S2048x8x128, .f32⟩ : BufTy).Contents (Elt Ideal))
    (x3 : (⟨S48x512, .f32⟩ : BufTy).Contents (Elt Ideal)) (x4 : (⟨S512, .f32⟩ : BufTy).Contents (Elt Ideal))
    (b : Fin 2048) (r u : Fin 8) (h : Fin 512) :
    val_main_v17 (F := Ideal) x0 x1 x2 x3 x4 (ix4 b r u h)
      = Cert.Mlp.hid1 (Cert.Mlp.featAt (val_main_v0 (F := Ideal) x0) (val_main_v1 (F := Ideal) x1) (val_main_v4 (F := Ideal) x2)
          (val_main_v7 (F := Ideal) x2) b r u) x3 x4 h := by
  rw [val_main_v17_apply, val_main_v16_apply, val_main_v13_apply, val_main_v15_apply, val_main_v14_apply,
    val_main_call0_v0_apply, val_main_call0_cst_apply, idx15_14]
  unfold Cert.Mlp.hid1
  refine congrArg₂ max (congrArg (· + x4 (ix1 h)) (Finset.sum_congr rfl fun k _ => ?_)) rfl
  rw [lidx13, ridx13, feat_apply]

/-- The second clamped layer at (b, r, u, k). -/
theorem hid2_apply (x0 : (⟨S2048x8x8x16, .f32⟩ : BufTy).Contents (Elt Ideal)) (x1 : (⟨S2048x16x8, .f32⟩ : BufTy).Contents (Elt Ideal)) (x2 : (⟨S2048x8x128, .f32⟩ : BufTy).Contents (Elt Ideal))
    (x3 : (⟨S48x512, .f32⟩ : BufTy).Contents (Elt Ideal)) (x4 : (⟨S512, .f32⟩ : BufTy).Contents (Elt Ideal))
    (x5 : (⟨S512x512, .f32⟩ : BufTy).Contents (Elt Ideal)) (x6 : (⟨S512, .f32⟩ : BufTy).Contents (Elt Ideal))
    (b : Fin 2048) (r u : Fin 8) (k : Fin 512) :
    val_main_v22 (F := Ideal) x0 x1 x2 x3 x4 x5 x6 (ix4 b r u k)
      = Cert.Mlp.hid2 (Cert.Mlp.featAt (val_main_v0 (F := Ideal) x0) (val_main_v1 (F := Ideal) x1) (val_main_v4 (F := Ideal) x2)
          (val_main_v7 (F := Ideal) x2) b r u) x3 x4 x5 x6 k := by
  rw [val_main_v22_apply, val_main_v21_apply, val_main_v18_apply, val_main_v20_apply, val_main_v19_apply,
    val_main_call1_v0_apply, val_main_call1_cst_apply, idx20_19]
  unfold Cert.Mlp.hid2
  refine congrArg₂ max (congrArg (· + x6 (ix1 k)) (Finset.sum_congr rfl fun h _ => ?_)) rfl
  rw [lidx18, ridx18, hid1_apply]

/-- THE REFERENCE'S RESULT is the specification's G of the four gathered arrays and the six parameters. -/
theorem result_eq (x0 : (⟨S2048x8x8x16, .f32⟩ : BufTy).Contents (Elt Ideal)) (x1 : (⟨S2048x16x8, .f32⟩ : BufTy).Contents (Elt Ideal)) (x2 : (⟨S2048x8x128, .f32⟩ : BufTy).Contents (Elt Ideal))
    (x3 : (⟨S48x512, .f32⟩ : BufTy).Contents (Elt Ideal)) (x4 : (⟨S512, .f32⟩ : BufTy).Contents (Elt Ideal))
    (x5 : (⟨S512x512, .f32⟩ : BufTy).Contents (Elt Ideal)) (x6 : (⟨S512, .f32⟩ : BufTy).Contents (Elt Ideal))
    (x7 : (⟨S512x16, .f32⟩ : BufTy).Contents (Elt Ideal)) (x8 : (⟨S16, .f32⟩ : BufTy).Contents (Elt Ideal)) :
    val_main_v27 (F := Ideal) x0 x1 x2 x3 x4 x5 x6 x7 x8
      = Cert.Mlp.G (val_main_v0 (F := Ideal) x0) (val_main_v1 (F := Ideal) x1) (val_main_v4 (F := Ideal) x2)
          (val_main_v7 (F := Ideal) x2) x3 x4 x5 x6 x7 x8 := by
  funext i
  obtain ⟨b, r, u, mm, rfl⟩ : ∃ (b : Fin 2048) (r u : Fin 8) (mm : Fin 16), i = ix4 b r u mm :=
    ⟨i 0, i 1, i 2, i 3, eq_ix4 i⟩
  rw [Cert.Mlp.G_apply, val_main_v27_apply, val_main_v26_apply, val_main_v23_apply, val_main_v25_apply, val_main_v24_apply,
    idx25_24]
  unfold Cert.Mlp.mlp
  refine congrArg Ideal.tanh (congrArg (· + x8 (ix1 mm)) (Finset.sum_congr rfl fun k _ => ?_))
  rw [lidx23, ridx23, hid2_apply]

end Cert.ReferenceIdeal.RefValue

end
-- ==== Proof.lean ====
/-
  A fused three-layer perceptron on gathered antenna features, against its plain jnp reference.

  Both programs first gather, on the host, four arrays from the inputs C [2048, 8, 8, 16], F [2048, 16, 8] and
  H [2048, 8, 128]: the sum of C over its user axis, the transpose of F, and the two halves of H regrouped as
  (batch, row, user, antenna). For every (batch b, row r, user u) the 48 features
      x = ( Fᵀ(b, r, ·) , ΣC(b, r, ·) , H₁(b, r, u, ·) , H₂(b, r, u, ·) )
  go through  out = tanh( max( max( x·W1 + b1, 0 )·W2 + b2, 0 )·W3 + b3 ).

  The kernel never materialises x for the whole batch: a grid of 32 points takes 64 batch entries each, builds the
  4096 rows of x in memory, runs the three matrix products on the rows (the last two on narrowed floats, which on the
  extended reals is no change at all), and writes the [4096, 16] result as 512 lane rows of 128; the host reshapes the
  lanes back to [2048, 8, 8, 16]. The reference forms the whole [2048, 8, 8, 48] array and contracts its last axis.

  Over the extended reals the two are one function, index by index: each contraction is the same finite sum of the same
  products (Proof/Spec.lean states it; Proof/KernelPoint.lean, Proof/Blocks.lean and Proof/KernelRun.lean read the
  kernel's result array as that function, Proof/Reference.lean the reference's). No algebraic law beyond that is used,
  so the finiteness precondition is never opened. The idealization rewrote no operation, so the fourth conjunct is
  trivial; the three frames are the programs' generated runs.
-/
import proofs.«154033_j36867999269161_2_alg».proof.Defs
import proofs.«154033_j36867999269161_2_alg».proof.Proof.Gen.Kernel
import proofs.«154033_j36867999269161_2_alg».proof.Proof.Gen.Kernel.Skeleton
import proofs.«154033_j36867999269161_2_alg».proof.Proof.Gen.Kernel.Launch
import proofs.«154033_j36867999269161_2_alg».proof.Proof.Gen.Kernel.Points
import proofs.«154033_j36867999269161_2_alg».proof.Proof.Gen.Kernel.Frame
import proofs.«154033_j36867999269161_2_alg».proof.Proof.Gen.KernelIdeal
import proofs.«154033_j36867999269161_2_alg».proof.Proof.Gen.KernelIdeal.Skeleton
import proofs.«154033_j36867999269161_2_alg».proof.Proof.Gen.KernelIdeal.Launch
import proofs.«154033_j36867999269161_2_alg».proof.Proof.Gen.KernelIdeal.Points
import proofs.«154033_j36867999269161_2_alg».proof.Proof.Gen.KernelIdeal.Frame
import proofs.«154033_j36867999269161_2_alg».proof.Proof.Gen.ReferenceIdeal
import proofs.«154033_j36867999269161_2_alg».proof.Proof.Gen.ReferenceIdeal.Run
import proofs.«154033_j36867999269161_2_alg».proof.Proof.Gen.ReferenceIdeal.Read
import proofs.«154033_j36867999269161_2_alg».proof.Proof.Gen.Pre_finite_inputs
import proofs.«154033_j36867999269161_2_alg».proof.Proof.KernelRun
import proofs.«154033_j36867999269161_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the nine arguments both programs end with the result array at the specification's G
    of the same four gathered arrays and six parameters: the kernel by its run read block by block, the reference by its
    run read stage by stage; the gathered arrays are the same host operations of the same arguments on both sides. -/
theorem algebraic : Cert.algebraic_KernelIdeal_ReferenceIdeal := by
  intro m ρ m' ρ' _ hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v27_eq, Cert.ReferenceIdeal.RefValue.result_eq, a0, a1, a2, a3, a4, a5, a6, a7, a8]
  unfold Cert.KernelIdeal.KRun.result
  beta_reduce
  rw [Cert.KernelIdeal.KRun.V_v0 m c, Cert.KernelIdeal.KRun.V_v1 m c, Cert.KernelIdeal.KRun.V_v4 m c,
    Cert.KernelIdeal.KRun.V_v7 m c, Cert.KernelIdeal.KRun.V_v8 m c, Cert.KernelIdeal.KRun.V_v9 m c,
    Cert.KernelIdeal.Gen.V_main_arg3 m c, Cert.KernelIdeal.Gen.V_main_arg4 m c, Cert.KernelIdeal.Gen.V_main_arg6 m c,
    Cert.KernelIdeal.Gen.V_main_arg8 m c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
